-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S256x128 : Shape := ⟨2, ![256, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128x128 .f32) (main_arg8 : FVec F S256x128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  main_v43

def fn_part1 {F : FTy → Type} [FloatOps F] (main_arg4 : FVec F S128x128 .f32) (main_arg5 : FVec F S128x128 .f32) (main_arg6 : FVec F S128x128 .f32) (main_arg7 : FVec F S128x128 .f32) (main_arg8 : FVec F S256x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S4096x4096 .f32) (main_arg2 : FVec F S4096x4096 .f32) (main_arg3 : FVec F S4096x4096 .f32) (main_arg4 : FVec F S128x128 .f32) (main_arg5 : FVec F S128x128 .f32) (main_arg6 : FVec F S128x128 .f32) (main_arg7 : FVec F S128x128 .f32) (main_arg8 : FVec F S256x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S256x128 : Shape := ⟨2, ![256, 128]⟩
abbrev S128x640 : Shape := ⟨2, ![128, 640]⟩
abbrev S4096x384 : Shape := ⟨2, ![4096, 384]⟩
abbrev S4096x256 : Shape := ⟨2, ![4096, 256]⟩
abbrev S4096x640 : Shape := ⟨2, ![4096, 640]⟩
abbrev S256x4096 : Shape := ⟨2, ![256, 4096]⟩
abbrev S256x256 : Shape := ⟨2, ![256, 256]⟩

abbrev nBuf : Space → Nat
  | .hbm => 15
  | .vmem => 18
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S256x128, .f32⟩
  | .hbm, ⟨9, _⟩ => ⟨S128x128, .f32⟩
  | .hbm, ⟨10, _⟩ => ⟨S128x640, .f32⟩
  | .hbm, ⟨11, _⟩ => ⟨S128x128, .f32⟩
  | .hbm, ⟨12, _⟩ => ⟨S4096x384, .bf16⟩
  | .hbm, ⟨13, _⟩ => ⟨S4096x256, .f32⟩
  | .hbm, ⟨14, _⟩ => ⟨S4096x128, .f32⟩
  | .local _ .vmem, ⟨0, _⟩ => ⟨S4096x128, .f32⟩
  | .local _ .vmem, ⟨1, _⟩ => ⟨S128x640, .f32⟩
  | .local _ .vmem, ⟨2, _⟩ => ⟨S4096x384, .bf16⟩
  | .local _ .vmem, ⟨3, _⟩ => ⟨S4096x256, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S4096x384, .bf16⟩
  | .local _ .vmem, ⟨11, _⟩ => ⟨S256x256, .f32⟩
  | .local _ .vmem, ⟨12, _⟩ => ⟨S256x256, .f32⟩
  | .local _ .vmem, ⟨13, _⟩ => ⟨S256x128, .f32⟩
  | .local _ .vmem, ⟨14, _⟩ => ⟨S256x128, .f32⟩
  | .local _ .vmem, ⟨15, _⟩ => ⟨S128x128, .f32⟩
  | .local _ .vmem, ⟨16, _⟩ => ⟨S256x128, .f32⟩
  | .local _ .vmem, ⟨17, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S256x128_S128x128_128_0 : S256x128.Slices ![128, 0] S128x128
  concatenates_S128x128_S128x128_S128x128_S128x128_S128x128_S128x640_d1 : Shape.Concatenates [S128x128, S128x128, S128x128, S128x128, S128x128] S128x640 1
  slices_S256x128_S128x128_0_0 : S256x128.Slices ![0, 0] S128x128
  inb_S4096x128_S4096x128_0_0 : ∀ a, (![0, 0] : Fin 2 → Nat) a + S4096x128.size a ≤ S4096x128.size a
  h_S4096x128 : 0 < S4096x128.numel
  inb_S128x640_S128x640_0_0 : ∀ a, (![0, 0] : Fin 2 → Nat) a + S128x640.size a ≤ S128x640.size a
  h_S128x640 : 0 < S128x640.numel
  shapeCasts_S128x640_S128x640 : S128x640.ShapeCasts S128x640
  slices_S4096x640_o0_0_S4096x384 : S4096x640.Slices ![0, 0] S4096x384
  bitsLt_bf16_f32 : FTy.bits .bf16 < FTy.bits .f32
  inb_S4096x384_S4096x384_0_0 : ∀ a, (![0, 0] : Fin 2 → Nat) a + S4096x384.size a ≤ S4096x384.size a
  h_S4096x384 : 0 < S4096x384.numel
  packedbf16_S4096x384_S4096x384_0_0 : (Rect.unit (s := S4096x384) ![0, 0] S4096x384.size inb_S4096x384_S4096x384_0_0).PackedRows (EltTy.packing .bf16)
  slices_S4096x640_o0_384_S4096x256 : S4096x640.Slices ![0, 384] S4096x256
  inb_S4096x256_S4096x256_0_0 : ∀ a, (![0, 0] : Fin 2 → Nat) a + S4096x256.size a ≤ S4096x256.size a
  h_S4096x256 : 0 < S4096x256.numel
  shapeCasts_S4096x384_S4096x384 : S4096x384.ShapeCasts S4096x384
  inb_S256x4096_S256x4096_0_0 : ∀ a, (![0, 0] : Fin 2 → Nat) a + S256x4096.size a ≤ S256x4096.size a
  h_S256x4096 : 0 < S256x4096.numel
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S256x256_o0_0_S256x128 : S256x256.Slices ![0, 0] S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S256x256_o0_128_S256x128 : S256x256.Slices ![0, 128] S256x128
  inb_S256x128_S256x128_0_0 : ∀ a, (![0, 0] : Fin 2 → Nat) a + S256x128.size a ≤ S256x128.size a
  h_S256x128 : 0 < S256x128.numel
  dot_S4096x128_S128x640_S4096x640_1_0_0_1_n_n_wf : DotDims.WF S4096x128 S128x640 S4096x640 [1] [0] [0] [1] [] []
  dot_S256x4096_S4096x128_S256x128_1_0_0_1_n_n_wf : DotDims.WF S256x4096 S4096x128 S256x128 [1] [0] [0] [1] [] []
  dot_S256x128_S128x128_S256x128_1_0_0_1_n_n_wf : DotDims.WF S256x128 S128x128 S256x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x384.size a ≤ S4096x384.size a
  hwx1_3 : ∀ i : grid1.Coords, EltTy.bits .bf16 = 32 ∨ (Rect.block (s := S4096x384) S4096x384.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S4096x256.size a
  hwx1_4 : ∀ i : grid1.Coords, EltTy.bits .f32 = 32 ∨ (Rect.block (s := S4096x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S4096x128.size a
  hwx1_5 : ∀ i : grid1.Coords, EltTy.bits .f32 = 32 ∨ (Rect.block (s := S4096x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S4096x128.size a
  hwx1_7 : ∀ i : grid1.Coords, EltTy.bits .f32 = 32 ∨ (Rect.block (s := S4096x128) S256x128.size (cc1_transform_7 i) (hinb1_7 i)).WholeWords (EltTy.packing .f32)

variable [Facts₀]

def dot_S4096x128_S128x640_S4096x640_1_0_0_1_n_n : DotDims S4096x128 S128x640 S4096x640 where
  lhsContracting := [1]
  rhsContracting := [0]
  lhsNonContracting := [0]
  rhsNonContracting := [1]
  lhsBatch := []
  rhsBatch := []
  wf := dot_S4096x128_S128x640_S4096x640_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) false false (stage0_1 0) (sem0_1 0) (Memref.isWhole_whole _) (hstage0_1 0)

abbrev win0_2 : Pipeline.Window sig grid0 :=
  Pipeline.Window.whole (Memref.whole main_v3_0) true false (stage0_2 0) (sem0_2 0) (Memref.isWhole_whole _) (hstage0_2 0)

abbrev win0_3 : Pipeline.Window sig grid0 :=
  Pipeline.Window.whole (Memref.whole main_v3_1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S4096x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S256x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v2) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S256x128 : Shape := ⟨2, ![256, 128]⟩
abbrev S_ : Shape := ⟨0, ![]⟩
abbrev S1x4096x128 : Shape := ⟨3, ![1, 4096, 128]⟩
abbrev S3x4096x128 : Shape := ⟨3, ![3, 4096, 128]⟩
abbrev S4096x256 : Shape := ⟨2, ![4096, 256]⟩

abbrev nBuf : Space → Nat
  | .hbm => 49
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S256x128, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x128, .f32⟩
  | .hbm, ⟨23, _⟩ => ⟨S4096x128, .f32⟩
  | .hbm, ⟨24, _⟩ => ⟨S1x4096x128, .f32⟩
  | .hbm, ⟨25, _⟩ => ⟨S1x4096x128, .f32⟩
  | .hbm, ⟨26, _⟩ => ⟨S1x4096x128, .f32⟩
  | .hbm, ⟨27, _⟩ => ⟨S3x4096x128, .f32⟩
  | .hbm, ⟨28, _⟩ => ⟨S_, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x256, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x128_S1x4096x128_1_2 : S4096x128.BroadcastsInDim S1x4096x128 (![1, 2] : Fin 2 → Fin S1x4096x128.rank)
  concatenates_S1x4096x128_S1x4096x128_S1x4096x128_S3x4096x128_d0 : Shape.Concatenates [S1x4096x128, S1x4096x128, S1x4096x128] S3x4096x128 0
  reducesTo_S3x4096x128_S4096x128_d0 : S3x4096x128.ReducesTo [0] S4096x128
  h_S_ : 0 < S_.numel
  concatenates_S4096x128_S4096x128_S4096x256_d1 : Shape.Concatenates [S4096x128, S4096x128] S4096x256 1
  bcast_S_S4096x128 : S_.BroadcastsInDim S4096x128 (![] : Fin 0 → Fin S4096x128.rank)
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []
  dot_S4096x256_S256x128_S4096x128_1_0_0_1_n_n_wf : DotDims.WF S4096x256 S256x128 S4096x128 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.Kernel.Prep.lean ====
/-
  The first pallas_call of the program, read at any float instance: ONE grid point whose body multiplies the node
  features H (4096 x 128) by the five weight matrices laid side by side (128 x 640) and stores the first 384 columns
  (the three per-relation projections H W_r, rounded to bf16) into its first output and the last 256 columns
  (H W_0 beside H G_h) into its second. Stated at a parameter `V`, the contents of the TensorCore's buffers when the
  call is entered: what each window's block is, what the body leaves in the two output buffers as one payload each over
  the two input blocks, and the body's Hoare triple at the one point.
-/
import proofs.«113407_g58420145160623_cont_9to1c4b_573_2_alg».proof.Proof.Gen.Kernel.Launch
import proofs.«113407_g58420145160623_cont_9to1c4b_573_2_alg».proof.Proof.Gen.Kernel.Skeleton
import proofs.«113407_g58420145160623_cont_9to1c4b_573_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Prep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`: the window's rectangle of its array, as the call finds the array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block when the body starts, whatever proof data describe the
    arrays by `V` and leave the inputs in place. -/
theorem in0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem in1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The rectangles the body reads and writes: each the whole of its buffer -/

abbrev rH : Rect S4096x128 := Rect.unit (s := S4096x128) ![0, 0] S4096x128.size inb_S4096x128_S4096x128_0_0
abbrev rW : Rect S128x640 := Rect.unit (s := S128x640) ![0, 0] S128x640.size inb_S128x640_S128x640_0_0
abbrev rP : Rect S4096x384 := Rect.unit (s := S4096x384) ![0, 0] S4096x384.size inb_S4096x384_S4096x384_0_0
abbrev rR : Rect S4096x256 := Rect.unit (s := S4096x256) ![0, 0] S4096x256.size inb_S4096x256_S4096x256_0_0

/-- What the body leaves in the projections' buffer: its one store, of the first 384 columns of H · Wcat. -/
def outP (h : Vec F S4096x128 .f32) (w : Vec F S128x640 .f32) : Vec F S4096x384 .bf16 :=
  View.canon [⟨rP, k0_pay2 (View.ld h rH) (View.ld w rW)⟩]
/-- What the body leaves in the second buffer: its one store, of the last 256 columns of H · Wcat. -/
def outR (h : Vec F S4096x128 .f32) (w : Vec F S128x640 .f32) : Vec F S4096x256 .f32 :=
  View.canon [⟨rR, k0_pay3 (View.ld h rH) (View.ld w rW)⟩]

theorem coverP (p0 : Vec F S4096x384 .bf16) (y : S4096x384.Idx) :
    ∃ pc ∈ ([⟨rP, p0⟩] : List (View.Piece (Elt F) S4096x384 .bf16)), y ∈ pc.1.set :=
  View.cover_of_tiled [⟨rP, p0⟩] S4096x384.size (by rfl) y
theorem coverR (p0 : Vec F S4096x256 .f32) (y : S4096x256.Idx) :
    ∃ pc ∈ ([⟨rR, p0⟩] : List (View.Piece (Elt F) S4096x256 .f32)), y ∈ pc.1.set :=
  View.cover_of_tiled [⟨rR, p0⟩] S4096x256.size (by rfl) y

set_option maxHeartbeats 1000000 in
/-- The body on whole staging buffers: the inputs held at `h`, `w`, the outputs at anything; it ends with the inputs
    as they were and the outputs at `outP h w`, `outR h w`. -/
theorem sound_kernel (c : Dev nD) (E : Set ℕ) (arg0 : Memref sig .tc .vmem S4096x128 .f32) (harg0 : arg0.IsWhole)
    (arg1 : Memref sig .tc .vmem S128x640 .f32) (harg1 : arg1.IsWhole)
    (arg2 : Memref sig .tc .vmem S4096x384 .bf16) (harg2 : arg2.IsWhole)
    (arg3 : Memref sig .tc .vmem S4096x256 .f32) (harg3 : arg3.IsWhole)
    (h : Vec F S4096x128 .f32) (w : Vec F S128x640 .f32) (K : PUnit → sProp 𝕄) :
    iprop(owns (c : Thread nD τ) arg0 fullShare h ∗ owns (c : Thread nD τ) arg1 fullShare w
        ∗ (∃ d, owns (c : Thread nD τ) arg2 fullShare d) ∗ (∃ d, owns (c : Thread nD τ) arg3 fullShare d)
        ∗ (iprop(owns (c : Thread nD τ) arg0 fullShare h ∗ owns (c : Thread nD τ) arg1 fullShare w
            ∗ owns (c : Thread nD τ) arg2 fullShare (outP h w) ∗ owns (c : Thread nD τ) arg3 fullShare (outR h w)) -∗ K ⟨⟩))
      ⊢ wp frame (wpE (defs₀ (F := F)) Variants.none c none) E (cc0__prep_kernel arg0 harg0 arg1 harg1 arg2 harg2 arg3 harg3) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverP _)
  iexists _; isplitr
  swap; · iexact H3
  ipureintro
  exact View.read_writes_eq_canon _ _ _ (coverR _)

/-! ## The proof data of the call -/

/-- The arrays as the call finds them; after the body the inputs' buffers still at their blocks and the outputs' at
    `outP`, `outR` of the input blocks; nothing else of the core is touched, nothing is owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outP (blk V c 0 t) (blk V c 1 t)
    | ⟨3, _⟩ => outR (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = outP (blk V c 0 t) (blk V c 1 t) := by dsimp only [dat]
theorem after_3 (c : Dev nD) (t : Fin cfg0.N) : (dat V c).after 3 t = outR (blk V c 0 t) (blk V c 1 t) := by dsimp only [dat]

theorem before_0 (c : Dev nD) (t : Fin cfg0.N) (d) : (dat V c).before 0 t d = blk V c 0 t :=
  in0_of V (dat V c) (A_eq V c 0) (after_0 V c) t d
theorem before_1 (c : Dev nD) (t : Fin cfg0.N) (d) : (dat V c).before 1 t d = blk V c 1 t :=
  in1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (blk V c 0 t) (blk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.Kernel.Prep

end
-- ==== Proof.Kernel.Layer.lean ====
/-
  The second pallas_call, read at any float instance: sixteen grid points, point t working on rows 256 t … 256 t + 255.
  Its body reads the three adjacency row blocks (256 x 4096), the whole table of projections (4096 x 384), the row block
  of [H W_0 | H G_h] (256 x 256), the row block of H (256 x 128) and the gate matrix G_u (128 x 128), and stores ONE value
  — tanh(u) · g + H · (1 − g), where u is the update and g the gate — over the whole 256 x 128 output buffer.
  Stated at a parameter `V`, the buffer contents when the call is entered: the windows' blocks, the output buffer after
  the body as one payload over the seven input blocks, the body's triple, the proof data and the body obligation.
-/
import proofs.«113407_g58420145160623_cont_9to1c4b_573_2_alg».proof.Proof.Gen.Kernel.Launch
import proofs.«113407_g58420145160623_cont_9to1c4b_573_2_alg».proof.Proof.Gen.Kernel.Skeleton
import proofs.«113407_g58420145160623_cont_9to1c4b_573_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`: the window's rectangle of its array, as the call finds the array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block when the body starts — at a point that fetches it because
    it was just fetched, at one that does not (the projections and G_u, whose block never moves) because the body left it
    in place. -/
theorem in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem in5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem in6_of {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The rectangles the body reads and writes: each the whole of its buffer -/

abbrev rA : Rect S256x4096 := Rect.unit (s := S256x4096) ![0, 0] S256x4096.size inb_S256x4096_S256x4096_0_0
abbrev rP : Rect S4096x384 := Rect.unit (s := S4096x384) ![0, 0] S4096x384.size inb_S4096x384_S4096x384_0_0
abbrev rR : Rect S256x256 := Rect.unit (s := S256x256) ![0, 0] S256x256.size inb_S256x256_S256x256_0_0
abbrev rH : Rect S256x128 := Rect.unit (s := S256x128) ![0, 0] S256x128.size inb_S256x128_S256x128_0_0
abbrev rG : Rect S128x128 := Rect.unit (s := S128x128) ![0, 0] S128x128.size inb_S128x128_S128x128_0_0

/-- What the body leaves in the output buffer: its one store, over the seven input blocks in window order
    (adjacency 0, 1, 2; projections; [H W_0 | H G_h]; H; G_u). -/
def outH (a0 a1 a2 : Vec F S256x4096 .f32) (p : Vec F S4096x384 .bf16) (r : Vec F S256x256 .f32) (h : Vec F S256x128 .f32)
    (g : Vec F S128x128 .f32) : Vec F S256x128 .f32 :=
  View.canon [⟨rH, k1_pay1 (View.ld p rP) (View.ld a0 rA) (View.ld a1 rA) (View.ld a2 rA) (View.ld r rR) (View.ld g rG) (View.ld h rH)⟩]

theorem coverH (p0 : Vec F S256x128 .f32) (y : S256x128.Idx) :
    ∃ pc ∈ ([⟨rH, p0⟩] : List (View.Piece (Elt F) S256x128 .f32)), y ∈ pc.1.set :=
  View.cover_of_tiled [⟨rH, p0⟩] S256x128.size (by rfl) y

set_option maxHeartbeats 2000000 in
/-- The body on whole staging buffers, the inputs held at given contents and the output at anything: it ends with the
    inputs as they were and the output at `outH` of them. -/
theorem sound_kernel (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S4096x384 .bf16) (harg4 : arg4.IsWhole)
    (arg5 : Memref sig .tc .vmem S256x256 .f32) (harg5 : arg5.IsWhole) (arg6 : Memref sig .tc .vmem S256x128 .f32) (harg6 : arg6.IsWhole)
    (arg7 : Memref sig .tc .vmem S128x128 .f32) (harg7 : arg7.IsWhole) (arg8 : Memref sig .tc .vmem S256x128 .f32) (harg8 : arg8.IsWhole)
    (a0 a1 a2 : Vec F S256x4096 .f32) (p : Vec F S4096x384 .bf16) (r : Vec F S256x256 .f32) (h : Vec F S256x128 .f32)
    (g : Vec F S128x128 .f32) (K : PUnit → sProp 𝕄) :
    iprop(owns (c : Thread nD τ) arg1 fullShare a0 ∗ owns (c : Thread nD τ) arg2 fullShare a1 ∗ owns (c : Thread nD τ) arg3 fullShare a2
        ∗ owns (c : Thread nD τ) arg4 fullShare p ∗ owns (c : Thread nD τ) arg5 fullShare r ∗ owns (c : Thread nD τ) arg6 fullShare h
        ∗ owns (c : Thread nD τ) arg7 fullShare g ∗ (∃ d, owns (c : Thread nD τ) arg8 fullShare d)
        ∗ (iprop(owns (c : Thread nD τ) arg1 fullShare a0 ∗ owns (c : Thread nD τ) arg2 fullShare a1 ∗ owns (c : Thread nD τ) arg3 fullShare a2
            ∗ owns (c : Thread nD τ) arg4 fullShare p ∗ owns (c : Thread nD τ) arg5 fullShare r ∗ owns (c : Thread nD τ) arg6 fullShare h
            ∗ owns (c : Thread nD τ) arg7 fullShare g ∗ owns (c : Thread nD τ) arg8 fullShare (outH a0 a1 a2 p r h g)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverH _)

/-! ## The proof data of the call -/

/-- The arrays as the call finds them; after the body at point `t` every input's buffer still at its block and the
    output's at `outH` of the input blocks; nothing else of the core is touched, nothing is owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outH (blk V c 0 t) (blk V c 1 t) (blk V c 2 t) (blk V c 3 t) (blk V c 4 t) (blk V c 5 t) (blk V c 6 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t
    = outH (blk V c 0 t) (blk V c 1 t) (blk V c 2 t) (blk V c 3 t) (blk V c 4 t) (blk V c 5 t) (blk V c 6 t) := by dsimp only [dat]

theorem before_0 (c : Dev nD) (t : Fin cfg1.N) (d) : (dat V c).before 0 t d = blk V c 0 t :=
  in0_of V (dat V c) (A_eq V c 0) (after_0 V c) t d
theorem before_1 (c : Dev nD) (t : Fin cfg1.N) (d) : (dat V c).before 1 t d = blk V c 1 t :=
  in1_of V (dat V c) (A_eq V c 1) (after_1 V c) t d
theorem before_2 (c : Dev nD) (t : Fin cfg1.N) (d) : (dat V c).before 2 t d = blk V c 2 t :=
  in2_of V (dat V c) (A_eq V c 2) (after_2 V c) t d
theorem before_3 (c : Dev nD) (t : Fin cfg1.N) (d) : (dat V c).before 3 t d = blk V c 3 t :=
  in3_of V (dat V c) (A_eq V c 3) (after_3 V c) t d
theorem before_4 (c : Dev nD) (t : Fin cfg1.N) (d) : (dat V c).before 4 t d = blk V c 4 t :=
  in4_of V (dat V c) (A_eq V c 4) (after_4 V c) t d
theorem before_5 (c : Dev nD) (t : Fin cfg1.N) (d) : (dat V c).before 5 t d = blk V c 5 t :=
  in5_of V (dat V c) (A_eq V c 5) (after_5 V c) t d
theorem before_6 (c : Dev nD) (t : Fin cfg1.N) (d) : (dat V c).before 6 t d = blk V c 6 t :=
  in6_of V (dat V c) (A_eq V c 6) (after_6 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W1, bigSep_W1]
  exact sound_body V c t

end Cert.Kernel.Layer

end
-- ==== Proof.Kernel.Run.lean ====
/-
  The run of the whole program at any float instance. Between its items — the three host operations that cut and
  lay out the weight matrices, the projection call, the layer call — the TensorCore's unscoped buffers hold:
  `Ma` at launch; `Mb` after the host operations; `Mc` after the projection call, whose two output arrays hold what its
  one point wrote back; `Md` after the layer call, whose output array holds what its sixteen points wrote back. Every
  weakly fair execution terminates without a fault and ends with EVERY unscoped buffer at `Md` (`run_all`); no item
  writes an argument array, so each argument reads back its launch contents through the four stages (`frame`).
-/
import proofs.«113407_g58420145160623_cont_9to1c4b_573_2_alg».proof.Proof.Kernel.Prep
import proofs.«113407_g58420145160623_cont_9to1c4b_573_2_alg».proof.Proof.Kernel.Layer
import proofs.«113407_g58420145160623_cont_9to1c4b_573_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- At launch. -/
abbrev Ma : Dev nD → Valuation τ sig (Elt F) := fun c b => (s₀ m ρ).mem ((c : Dev nD), b)
/-- After the host operations: G_h = rows 128…255 of the gate matrix, the five matrices side by side, G_u = rows 0…127. -/
abbrev Mb : Dev nD → Valuation τ sig (Elt F) := fun c => StableHlo.after hostOps0 (Ma m ρ c)
abbrev Nb : (c : Dev nD) → (b : Ref sig .tc) → Buf (Elt F) ((c : Thread nD τ).loc b) := fun c b => Mb m ρ c b
/-- After the projection call: its arrays at what its write-backs leave, every other buffer as before. -/
def Mc (c : Dev nD) : Valuation τ sig (Elt F) :=
  Pipeline.withArrays spec0 c (Mb m ρ c) fun w => (Prep.dat (Nb m ρ) c).arrAt w cfg0.N
theorem Mc_arr (c : Dev nD) (w : Fin cfg0.W) :
    Mc m ρ c (Proc.devRef .tc (Pipeline.arrRef spec0 w)) = (Prep.dat (Nb m ρ) c).arrAt w cfg0.N := by
  unfold Mc; exact Pipeline.withArrays_arr spec0 launch0.win.arr_inj c _ _ w
theorem Mc_of_ne (c : Dev nD) (b : Ref sig .tc) (hb : ∀ w, Pipeline.arrRef spec0 w ≠ b) :
    Mc m ρ c (Proc.devRef .tc b) = Mb m ρ c (Proc.devRef .tc b) := by
  unfold Mc; exact Pipeline.withArrays_of_ne spec0 c _ _ b hb
abbrev Nc : (c : Dev nD) → (b : Ref sig .tc) → Buf (Elt F) ((c : Thread nD τ).loc b) := fun c b => Mc m ρ c b
theorem hF0 (c : Dev nD) (w : Fin cfg0.W) : (Prep.dat (Nb m ρ) c).arrAt w cfg0.N = Nc m ρ c (Pipeline.arrRef spec0 w) :=
  (Mc_arr m ρ c w).symm
theorem hrest0 (c : Dev nD) : ∀ b, b ∉ Finset.univ.image (Pipeline.arrRef spec0) → Nc m ρ c b = Nb m ρ c b :=
  fun b hb => Mc_of_ne m ρ c b fun w e => hb (Finset.mem_image.mpr ⟨w, Finset.mem_univ _, e⟩)
/-- After the layer call: its arrays at what its write-backs leave, every other buffer as before. -/
def Md (c : Dev nD) : Valuation τ sig (Elt F) :=
  Pipeline.withArrays spec1 c (Mc m ρ c) fun w => (Layer.dat (Nc m ρ) c).arrAt w cfg1.N
theorem Md_arr (c : Dev nD) (w : Fin cfg1.W) :
    Md m ρ c (Proc.devRef .tc (Pipeline.arrRef spec1 w)) = (Layer.dat (Nc m ρ) c).arrAt w cfg1.N := by
  unfold Md; exact Pipeline.withArrays_arr spec1 launch1.win.arr_inj c _ _ w
theorem Md_of_ne (c : Dev nD) (b : Ref sig .tc) (hb : ∀ w, Pipeline.arrRef spec1 w ≠ b) :
    Md m ρ c (Proc.devRef .tc b) = Mc m ρ c (Proc.devRef .tc b) := by
  unfold Md; exact Pipeline.withArrays_of_ne spec1 c _ _ b hb
abbrev Nd : (c : Dev nD) → (b : Ref sig .tc) → Buf (Elt F) ((c : Thread nD τ).loc b) := fun c b => Md m ρ c b
theorem hF1 (c : Dev nD) (w : Fin cfg1.W) : (Layer.dat (Nc m ρ) c).arrAt w cfg1.N = Nd m ρ c (Pipeline.arrRef spec1 w) :=
  (Md_arr m ρ c w).symm
theorem hrest1 (c : Dev nD) : ∀ b, b ∉ Finset.univ.image (Pipeline.arrRef spec1) → Nd m ρ c b = Nc m ρ c b :=
  fun b hb => Md_of_ne m ρ c b fun w e => hb (Finset.mem_image.mpr ⟨w, Finset.mem_univ _, e⟩)

/-! ## No item writes an argument: a call reads it through an input window, or does not touch it; the host
    operations write only the three cut-and-laid-out matrices -/

theorem Md_main_arg0 (c : Dev nD) : Md m ρ c (Proc.devRef .tc main_arg0) = m ((c : Thread nD τ).loc main_arg0) :=
  calc Md m ρ c (Proc.devRef .tc main_arg0)
    _ = Mc m ρ c (Proc.devRef .tc main_arg0) := (Md_arr m ρ c 5).trans (((Layer.dat (Nc m ρ) c).arrAt_in 5 rfl _).trans (Layer.A_eq (Nc m ρ) c 5))
    _ = Mb m ρ c (Proc.devRef .tc main_arg0) := (Mc_arr m ρ c 0).trans (((Prep.dat (Nb m ρ) c).arrAt_in 0 rfl _).trans (Prep.A_eq (Nb m ρ) c 0))
    _ = Ma m ρ c (Proc.devRef .tc main_arg0) := StableHlo.after_of_writes_sub hostOps0 _ Gen.hostOps0_writes (by decide)
    _ = m ((c : Thread nD τ).loc main_arg0) := rfl
theorem Md_main_arg1 (c : Dev nD) : Md m ρ c (Proc.devRef .tc main_arg1) = m ((c : Thread nD τ).loc main_arg1) :=
  calc Md m ρ c (Proc.devRef .tc main_arg1)
    _ = Mc m ρ c (Proc.devRef .tc main_arg1) := (Md_arr m ρ c 0).trans (((Layer.dat (Nc m ρ) c).arrAt_in 0 rfl _).trans (Layer.A_eq (Nc m ρ) c 0))
    _ = Mb m ρ c (Proc.devRef .tc main_arg1) := Mc_of_ne m ρ c main_arg1 (by decide)
    _ = Ma m ρ c (Proc.devRef .tc main_arg1) := StableHlo.after_of_writes_sub hostOps0 _ Gen.hostOps0_writes (by decide)
    _ = m ((c : Thread nD τ).loc main_arg1) := rfl
theorem Md_main_arg2 (c : Dev nD) : Md m ρ c (Proc.devRef .tc main_arg2) = m ((c : Thread nD τ).loc main_arg2) :=
  calc Md m ρ c (Proc.devRef .tc main_arg2)
    _ = Mc m ρ c (Proc.devRef .tc main_arg2) := (Md_arr m ρ c 1).trans (((Layer.dat (Nc m ρ) c).arrAt_in 1 rfl _).trans (Layer.A_eq (Nc m ρ) c 1))
    _ = Mb m ρ c (Proc.devRef .tc main_arg2) := Mc_of_ne m ρ c main_arg2 (by decide)
    _ = Ma m ρ c (Proc.devRef .tc main_arg2) := StableHlo.after_of_writes_sub hostOps0 _ Gen.hostOps0_writes (by decide)
    _ = m ((c : Thread nD τ).loc main_arg2) := rfl
theorem Md_main_arg3 (c : Dev nD) : Md m ρ c (Proc.devRef .tc main_arg3) = m ((c : Thread nD τ).loc main_arg3) :=
  calc Md m ρ c (Proc.devRef .tc main_arg3)
    _ = Mc m ρ c (Proc.devRef .tc main_arg3) := (Md_arr m ρ c 2).trans (((Layer.dat (Nc m ρ) c).arrAt_in 2 rfl _).trans (Layer.A_eq (Nc m ρ) c 2))
    _ = Mb m ρ c (Proc.devRef .tc main_arg3) := Mc_of_ne m ρ c main_arg3 (by decide)
    _ = Ma m ρ c (Proc.devRef .tc main_arg3) := StableHlo.after_of_writes_sub hostOps0 _ Gen.hostOps0_writes (by decide)
    _ = m ((c : Thread nD τ).loc main_arg3) := rfl
theorem Md_main_arg4 (c : Dev nD) : Md m ρ c (Proc.devRef .tc main_arg4) = m ((c : Thread nD τ).loc main_arg4) :=
  calc Md m ρ c (Proc.devRef .tc main_arg4)
    _ = Mc m ρ c (Proc.devRef .tc main_arg4) := Md_of_ne m ρ c main_arg4 (by decide)
    _ = Mb m ρ c (Proc.devRef .tc main_arg4) := Mc_of_ne m ρ c main_arg4 (by decide)
    _ = Ma m ρ c (Proc.devRef .tc main_arg4) := StableHlo.after_of_writes_sub hostOps0 _ Gen.hostOps0_writes (by decide)
    _ = m ((c : Thread nD τ).loc main_arg4) := rfl
theorem Md_main_arg5 (c : Dev nD) : Md m ρ c (Proc.devRef .tc main_arg5) = m ((c : Thread nD τ).loc main_arg5) :=
  calc Md m ρ c (Proc.devRef .tc main_arg5)
    _ = Mc m ρ c (Proc.devRef .tc main_arg5) := Md_of_ne m ρ c main_arg5 (by decide)
    _ = Mb m ρ c (Proc.devRef .tc main_arg5) := Mc_of_ne m ρ c main_arg5 (by decide)
    _ = Ma m ρ c (Proc.devRef .tc main_arg5) := StableHlo.after_of_writes_sub hostOps0 _ Gen.hostOps0_writes (by decide)
    _ = m ((c : Thread nD τ).loc main_arg5) := rfl
theorem Md_main_arg6 (c : Dev nD) : Md m ρ c (Proc.devRef .tc main_arg6) = m ((c : Thread nD τ).loc main_arg6) :=
  calc Md m ρ c (Proc.devRef .tc main_arg6)
    _ = Mc m ρ c (Proc.devRef .tc main_arg6) := Md_of_ne m ρ c main_arg6 (by decide)
    _ = Mb m ρ c (Proc.devRef .tc main_arg6) := Mc_of_ne m ρ c main_arg6 (by decide)
    _ = Ma m ρ c (Proc.devRef .tc main_arg6) := StableHlo.after_of_writes_sub hostOps0 _ Gen.hostOps0_writes (by decide)
    _ = m ((c : Thread nD τ).loc main_arg6) := rfl
theorem Md_main_arg7 (c : Dev nD) : Md m ρ c (Proc.devRef .tc main_arg7) = m ((c : Thread nD τ).loc main_arg7) :=
  calc Md m ρ c (Proc.devRef .tc main_arg7)
    _ = Mc m ρ c (Proc.devRef .tc main_arg7) := Md_of_ne m ρ c main_arg7 (by decide)
    _ = Mb m ρ c (Proc.devRef .tc main_arg7) := Mc_of_ne m ρ c main_arg7 (by decide)
    _ = Ma m ρ c (Proc.devRef .tc main_arg7) := StableHlo.after_of_writes_sub hostOps0 _ Gen.hostOps0_writes (by decide)
    _ = m ((c : Thread nD τ).loc main_arg7) := rfl
theorem Md_main_arg8 (c : Dev nD) : Md m ρ c (Proc.devRef .tc main_arg8) = m ((c : Thread nD τ).loc main_arg8) :=
  calc Md m ρ c (Proc.devRef .tc main_arg8)
    _ = Mc m ρ c (Proc.devRef .tc main_arg8) := Md_of_ne m ρ c main_arg8 (by decide)
    _ = Mb m ρ c (Proc.devRef .tc main_arg8) := Mc_of_ne m ρ c main_arg8 (by decide)
    _ = Ma m ρ c (Proc.devRef .tc main_arg8) := StableHlo.after_of_writes_sub hostOps0 _ Gen.hostOps0_writes (by decide)
    _ = m ((c : Thread nD τ).loc main_arg8) := rfl

/-! ## The proof data of both calls and the state that rides between the items -/

abbrev padm : (p : Fin 2) → (pcfgs (F := F) p).Adm := fun p => (cfgs p).toPCfg_adm
/-- Each call's proof data at the contents it is entered from. -/
def pdat : (p : Fin 2) → (c : Dev nD) → Dat τ (Elt F) Unit ℕ (UR sig nD τ) ℕ (Pipeline.pin (pcfgs (F := F)) padm p) c
  | ⟨0, _⟩ => fun c => Prep.dat (Nb m ρ) c
  | ⟨1, _⟩ => fun c => Layer.dat (Nc m ρ) c
abbrev 𝒱n : Variants := Variants.none
abbrev Ln : GSem nD τ sig → Finset Unit := fun _ => ∅
abbrev lvn : GSem nD τ sig → Unit → ℕ := fun _ _ => 0
/-- Beside the buffers: the core's generator register at some state, and the core owing nothing. -/
abbrev Rn (c : Dev nD) : sProp 𝕄 := iprop((∃ r, prngReg c r) ∗ ∃ W, owes (c : Thread nD τ) (0 : CellTallies nD τ sig Unit) W)
theorem hostOps0_fresh' : (hostOps0 : List (HloOp τ sig (Elt F))).Forall fun op => op.fresh = ∅ := by
  simp only [List.Forall]; repeat' constructor
/-- The host operations as one segment from the launch contents. -/
abbrev hostSeg : Pipeline.HostSeg (Name := ℕ) (U := UR sig nD τ) (pcfgs (F := F)) defs₀ 𝒱n Ln lvn :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh') op h) (Ma m ρ) Rn
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what the core owes: every unscoped buffer at `Md`, the register at some state. -/
abbrev Tend (c : Dev nD) : sProp 𝕄 := iprop(StableHlo.held (c : Thread nD τ) (Pipeline.ucRefs τ sig) (Md m ρ c) ∗ ∃ r, prngReg c r)

/-! ## The two calls as segments: a call's arrays are split out of the unscoped buffers at its entry and put back at
    their final contents at its exit; the register goes into the call's invariant and comes back -/

set_option backward.isDefEq.respectTransparency.types false in
def regPrep : Pipeline.RegionSeg (pcfgs (F := F)) padm (pdat m ρ) () defs₀ 𝒱n Ln lvn 0 where
  win := launch0.win.to₀
  block_pos := launch0.block_pos
  stage_whole := launch0.stage_whole
  K := PEmpty
  osem k := k.elim
  ho := Pipeline.OwnSemFacts.none _
  hbody c := (Prep.body_obligation (Nb m ρ) c).loose
  hwaits := Pipeline.hwaits_of_owed_zero _ _ _ _ Ln lvn 0 fun _ _ => rfl
  pre c := iprop(StableHlo.held (c : Thread nD τ) (Pipeline.ucRefs τ sig) (Mb m ρ c) ∗ Rn c)
  post c := iprop(StableHlo.held (c : Thread nD τ) (Pipeline.ucRefs τ sig) (Mc m ρ c) ∗ Rn c)
  X c := iprop(∃ r, prngReg c r)
  Y c := iprop(∃ r, prngReg c r)
  Z c := Pipeline.unscopedRest (Ix := Unit) (Name := ℕ) (U := UR sig nD τ) (Lvl := ℕ) spec0 c (Nb m ρ c)
  hentry c := by
    rw [Pipeline.ownSems0_none]
    have hsplit := Pipeline.arrays_of_unscopedBufs (p := 0) (pcfgs (F := F)) padm (pdat m ρ) launch0.win launch0.arr_whole c
      ((pdat m ρ 0 c).share_full fun _ => rfl) (Nb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdat m ρ) ((pdat m ρ 0 c).share_full fun _ => rfl)
      (Nb m ρ c) (Nc m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regLayer : Pipeline.RegionSeg (pcfgs (F := F)) padm (pdat m ρ) () defs₀ 𝒱n Ln lvn 1 where
  win := launch1.win.to₀
  block_pos := launch1.block_pos
  stage_whole := launch1.stage_whole
  K := PEmpty
  osem k := k.elim
  ho := Pipeline.OwnSemFacts.none _
  hbody c := (Layer.body_obligation (Nc m ρ) c).loose
  hwaits := Pipeline.hwaits_of_owed_zero _ _ _ _ Ln lvn 1 fun _ _ => rfl
  pre c := iprop(StableHlo.held (c : Thread nD τ) (Pipeline.ucRefs τ sig) (Mc m ρ c) ∗ Rn c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Nc m ρ c)
  hentry c := by
    rw [Pipeline.ownSems0_none]
    have hsplit := Pipeline.arrays_of_unscopedBufs (p := 1) (pcfgs (F := F)) padm (pdat m ρ) launch1.win launch1.arr_whole c
      ((pdat m ρ 1 c).share_full fun _ => rfl) (Nc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdat m ρ) ((pdat m ρ 1 c).share_full fun _ => rfl)
      (Nc m ρ c) (Nd m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three segments, and the launch -/

abbrev mainSegs : List (Pipeline.Seg (pcfgs (F := F)) padm (pdat m ρ) () defs₀ 𝒱n Ln lvn) :=
  [ .host (hostSeg m ρ), .region (regPrep m ρ), .region (regLayer m ρ) ]
theorem main_is_run (c : Dev nD) : main (F := F) c = Pipeline.Seg.run (mainSegs m ρ) := (main_chain c).trans (by chain_rfl)

set_option backward.isDefEq.respectTransparency.types false in
/-- Every weakly fair execution from memory `m` with zero counters terminates, nothing faulting, and ends with every
    unscoped buffer of every core at `Md`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Md m ρ c b) :=
  Pipeline.θ_run_regions_kit (pcfgs (F := F)) padm (pdat m ρ) () cellOf_inj emb₁ defs₀ 𝒱n Ln lvn m ρ main (mainSegs m ρ)
    (fun c Q => by rw [main_is_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Ma m ρ c) ∗ Rn c)) (Tₙ := Tend m ρ)
    (hch := ⟨fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (Ma m ρ c)
        from Pipeline.unscopedBufs_held c (Ma m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Md m ρ c b)
    (hfin := fun c s' => by
      iintro ⟨⟨Hh, -⟩, HSI⟩
      unfold StableHlo.held
      imodintro
      iapply (pointsTo_read_all (Pipeline.ucRefs τ sig) (fun b => (((c : Thread nD τ)).1, b)) (Md m ρ c) s')
      isplitl [Hh] <;> iassumption)
    (hQ := fun s h c => h c)

/-- The frame: the program runs to the end and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (Md_main_arg0 m ρ c),
     (h c _ (mem_uc main_arg1 (by decide))).trans (Md_main_arg1 m ρ c),
     (h c _ (mem_uc main_arg2 (by decide))).trans (Md_main_arg2 m ρ c),
     (h c _ (mem_uc main_arg3 (by decide))).trans (Md_main_arg3 m ρ c),
     (h c _ (mem_uc main_arg4 (by decide))).trans (Md_main_arg4 m ρ c),
     (h c _ (mem_uc main_arg5 (by decide))).trans (Md_main_arg5 m ρ c),
     (h c _ (mem_uc main_arg6 (by decide))).trans (Md_main_arg6 m ρ c),
     (h c _ (mem_uc main_arg7 (by decide))).trans (Md_main_arg7 m ρ c),
     (h c _ (mem_uc main_arg8 (by decide))).trans (Md_main_arg8 m ρ c)⟩)
    (run_all m ρ)

end Cert.Kernel.Whole

end
-- ==== Proof.KernelIdeal.Prep.lean ====
/-
  The first pallas_call of the program, read at any float instance: ONE grid point whose body multiplies the node
  features H (4096 x 128) by the five weight matrices laid side by side (128 x 640) and stores the first 384 columns
  (the three per-relation projections H W_r, rounded to bf16) into its first output and the last 256 columns
  (H W_0 beside H G_h) into its second. Stated at a parameter `V`, the contents of the TensorCore's buffers when the
  call is entered: what each window's block is, what the body leaves in the two output buffers as one payload each over
  the two input blocks, and the body's Hoare triple at the one point.
-/
import proofs.«113407_g58420145160623_cont_9to1c4b_573_2_alg».proof.Proof.Gen.KernelIdeal.Launch
import proofs.«113407_g58420145160623_cont_9to1c4b_573_2_alg».proof.Proof.Gen.KernelIdeal.Skeleton
import proofs.«113407_g58420145160623_cont_9to1c4b_573_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Prep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`: the window's rectangle of its array, as the call finds the array. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block when the body starts, whatever proof data describe the
    arrays by `V` and leave the inputs in place. -/
theorem in0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem in1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The rectangles the body reads and writes: each the whole of its buffer -/

abbrev rH : Rect S4096x128 := Rect.unit (s := S4096x128) ![0, 0] S4096x128.size inb_S4096x128_S4096x128_0_0
abbrev rW : Rect S128x640 := Rect.unit (s := S128x640) ![0, 0] S128x640.size inb_S128x640_S128x640_0_0
abbrev rP : Rect S4096x384 := Rect.unit (s := S4096x384) ![0, 0] S4096x384.size inb_S4096x384_S4096x384_0_0
abbrev rR : Rect S4096x256 := Rect.unit (s := S4096x256) ![0, 0] S4096x256.size inb_S4096x256_S4096x256_0_0

/-- What the body leaves in the projections' buffer: its one store, of the first 384 columns of H · Wcat. -/
def outP (h : Vec F S4096x128 .f32) (w : Vec F S128x640 .f32) : Vec F S4096x384 .bf16 :=
  View.canon [⟨rP, k0_pay2 (View.ld h rH) (View.ld w rW)⟩]
/-- What the body leaves in the second buffer: its one store, of the last 256 columns of H · Wcat. -/
def outR (h : Vec F S4096x128 .f32) (w : Vec F S128x640 .f32) : Vec F S4096x256 .f32 :=
  View.canon [⟨rR, k0_pay3 (View.ld h rH) (View.ld w rW)⟩]

theorem coverP (p0 : Vec F S4096x384 .bf16) (y : S4096x384.Idx) :
    ∃ pc ∈ ([⟨rP, p0⟩] : List (View.Piece (Elt F) S4096x384 .bf16)), y ∈ pc.1.set :=
  View.cover_of_tiled [⟨rP, p0⟩] S4096x384.size (by rfl) y
theorem coverR (p0 : Vec F S4096x256 .f32) (y : S4096x256.Idx) :
    ∃ pc ∈ ([⟨rR, p0⟩] : List (View.Piece (Elt F) S4096x256 .f32)), y ∈ pc.1.set :=
  View.cover_of_tiled [⟨rR, p0⟩] S4096x256.size (by rfl) y

set_option maxHeartbeats 1000000 in
/-- The body on whole staging buffers: the inputs held at `h`, `w`, the outputs at anything; it ends with the inputs
    as they were and the outputs at `outP h w`, `outR h w`. -/
theorem sound_kernel (c : Dev nD) (E : Set ℕ) (arg0 : Memref sig .tc .vmem S4096x128 .f32) (harg0 : arg0.IsWhole)
    (arg1 : Memref sig .tc .vmem S128x640 .f32) (harg1 : arg1.IsWhole)
    (arg2 : Memref sig .tc .vmem S4096x384 .bf16) (harg2 : arg2.IsWhole)
    (arg3 : Memref sig .tc .vmem S4096x256 .f32) (harg3 : arg3.IsWhole)
    (h : Vec F S4096x128 .f32) (w : Vec F S128x640 .f32) (K : PUnit → sProp 𝕄) :
    iprop(owns (c : Thread nD τ) arg0 fullShare h ∗ owns (c : Thread nD τ) arg1 fullShare w
        ∗ (∃ d, owns (c : Thread nD τ) arg2 fullShare d) ∗ (∃ d, owns (c : Thread nD τ) arg3 fullShare d)
        ∗ (iprop(owns (c : Thread nD τ) arg0 fullShare h ∗ owns (c : Thread nD τ) arg1 fullShare w
            ∗ owns (c : Thread nD τ) arg2 fullShare (outP h w) ∗ owns (c : Thread nD τ) arg3 fullShare (outR h w)) -∗ K ⟨⟩))
      ⊢ wp frame (wpE (defs₀ (F := F)) Variants.none c none) E (cc0__prep_kernel arg0 harg0 arg1 harg1 arg2 harg2 arg3 harg3) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverP _)
  iexists _; isplitr
  swap; · iexact H3
  ipureintro
  exact View.read_writes_eq_canon _ _ _ (coverR _)

/-! ## The proof data of the call -/

/-- The arrays as the call finds them; after the body the inputs' buffers still at their blocks and the outputs' at
    `outP`, `outR` of the input blocks; nothing else of the core is touched, nothing is owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => outP (blk V c 0 t) (blk V c 1 t)
    | ⟨3, _⟩ => outR (blk V c 0 t) (blk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = outP (blk V c 0 t) (blk V c 1 t) := by dsimp only [dat]
theorem after_3 (c : Dev nD) (t : Fin cfg0.N) : (dat V c).after 3 t = outR (blk V c 0 t) (blk V c 1 t) := by dsimp only [dat]

theorem before_0 (c : Dev nD) (t : Fin cfg0.N) (d) : (dat V c).before 0 t d = blk V c 0 t :=
  in0_of V (dat V c) (A_eq V c 0) (after_0 V c) t d
theorem before_1 (c : Dev nD) (t : Fin cfg0.N) (d) : (dat V c).before 1 t d = blk V c 1 t :=
  in1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ (blk V c 0 t) (blk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.KernelIdeal.Prep

end
-- ==== Proof.KernelIdeal.Layer.lean ====
/-
  The second pallas_call, read at any float instance: sixteen grid points, point t working on rows 256 t … 256 t + 255.
  Its body reads the three adjacency row blocks (256 x 4096), the whole table of projections (4096 x 384), the row block
  of [H W_0 | H G_h] (256 x 256), the row block of H (256 x 128) and the gate matrix G_u (128 x 128), and stores ONE value
  — tanh(u) · g + H · (1 − g), where u is the update and g the gate — over the whole 256 x 128 output buffer.
  Stated at a parameter `V`, the buffer contents when the call is entered: the windows' blocks, the output buffer after
  the body as one payload over the seven input blocks, the body's triple, the proof data and the body obligation.
-/
import proofs.«113407_g58420145160623_cont_9to1c4b_573_2_alg».proof.Proof.Gen.KernelIdeal.Launch
import proofs.«113407_g58420145160623_cont_9to1c4b_573_2_alg».proof.Proof.Gen.KernelIdeal.Skeleton
import proofs.«113407_g58420145160623_cont_9to1c4b_573_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`: the window's rectangle of its array, as the call finds the array. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds the window's block when the body starts — at a point that fetches it because
    it was just fetched, at one that does not (the projections and G_u, whose block never moves) because the body left it
    in place. -/
theorem in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem in5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)
theorem in6_of {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-! ## The rectangles the body reads and writes: each the whole of its buffer -/

abbrev rA : Rect S256x4096 := Rect.unit (s := S256x4096) ![0, 0] S256x4096.size inb_S256x4096_S256x4096_0_0
abbrev rP : Rect S4096x384 := Rect.unit (s := S4096x384) ![0, 0] S4096x384.size inb_S4096x384_S4096x384_0_0
abbrev rR : Rect S256x256 := Rect.unit (s := S256x256) ![0, 0] S256x256.size inb_S256x256_S256x256_0_0
abbrev rH : Rect S256x128 := Rect.unit (s := S256x128) ![0, 0] S256x128.size inb_S256x128_S256x128_0_0
abbrev rG : Rect S128x128 := Rect.unit (s := S128x128) ![0, 0] S128x128.size inb_S128x128_S128x128_0_0

/-- What the body leaves in the output buffer: its one store, over the seven input blocks in window order
    (adjacency 0, 1, 2; projections; [H W_0 | H G_h]; H; G_u). -/
def outH (a0 a1 a2 : Vec F S256x4096 .f32) (p : Vec F S4096x384 .bf16) (r : Vec F S256x256 .f32) (h : Vec F S256x128 .f32)
    (g : Vec F S128x128 .f32) : Vec F S256x128 .f32 :=
  View.canon [⟨rH, k1_pay1 (View.ld p rP) (View.ld a0 rA) (View.ld a1 rA) (View.ld a2 rA) (View.ld r rR) (View.ld g rG) (View.ld h rH)⟩]

theorem coverH (p0 : Vec F S256x128 .f32) (y : S256x128.Idx) :
    ∃ pc ∈ ([⟨rH, p0⟩] : List (View.Piece (Elt F) S256x128 .f32)), y ∈ pc.1.set :=
  View.cover_of_tiled [⟨rH, p0⟩] S256x128.size (by rfl) y

set_option maxHeartbeats 2000000 in
/-- The body on whole staging buffers, the inputs held at given contents and the output at anything: it ends with the
    inputs as they were and the output at `outH` of them. -/
theorem sound_kernel (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S256x4096 .f32) (harg3 : arg3.IsWhole) (arg4 : Memref sig .tc .vmem S4096x384 .bf16) (harg4 : arg4.IsWhole)
    (arg5 : Memref sig .tc .vmem S256x256 .f32) (harg5 : arg5.IsWhole) (arg6 : Memref sig .tc .vmem S256x128 .f32) (harg6 : arg6.IsWhole)
    (arg7 : Memref sig .tc .vmem S128x128 .f32) (harg7 : arg7.IsWhole) (arg8 : Memref sig .tc .vmem S256x128 .f32) (harg8 : arg8.IsWhole)
    (a0 a1 a2 : Vec F S256x4096 .f32) (p : Vec F S4096x384 .bf16) (r : Vec F S256x256 .f32) (h : Vec F S256x128 .f32)
    (g : Vec F S128x128 .f32) (K : PUnit → sProp 𝕄) :
    iprop(owns (c : Thread nD τ) arg1 fullShare a0 ∗ owns (c : Thread nD τ) arg2 fullShare a1 ∗ owns (c : Thread nD τ) arg3 fullShare a2
        ∗ owns (c : Thread nD τ) arg4 fullShare p ∗ owns (c : Thread nD τ) arg5 fullShare r ∗ owns (c : Thread nD τ) arg6 fullShare h
        ∗ owns (c : Thread nD τ) arg7 fullShare g ∗ (∃ d, owns (c : Thread nD τ) arg8 fullShare d)
        ∗ (iprop(owns (c : Thread nD τ) arg1 fullShare a0 ∗ owns (c : Thread nD τ) arg2 fullShare a1 ∗ owns (c : Thread nD τ) arg3 fullShare a2
            ∗ owns (c : Thread nD τ) arg4 fullShare p ∗ owns (c : Thread nD τ) arg5 fullShare r ∗ owns (c : Thread nD τ) arg6 fullShare h
            ∗ owns (c : Thread nD τ) arg7 fullShare g ∗ owns (c : Thread nD τ) arg8 fullShare (outH a0 a1 a2 p r h g)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1; subst hf2; subst hf3; subst hf4; subst hf5; subst hf6; subst hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverH _)

/-! ## The proof data of the call -/

/-- The arrays as the call finds them; after the body at point `t` every input's buffer still at its block and the
    output's at `outH` of the input blocks; nothing else of the core is touched, nothing is owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outH (blk V c 0 t) (blk V c 1 t) (blk V c 2 t) (blk V c 3 t) (blk V c 4 t) (blk V c 5 t) (blk V c 6 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = blk V c 6 t := by dsimp only [dat]
theorem after_7 (c : Dev nD) (t : Fin cfg1.N) : (dat V c).after 7 t
    = outH (blk V c 0 t) (blk V c 1 t) (blk V c 2 t) (blk V c 3 t) (blk V c 4 t) (blk V c 5 t) (blk V c 6 t) := by dsimp only [dat]

theorem before_0 (c : Dev nD) (t : Fin cfg1.N) (d) : (dat V c).before 0 t d = blk V c 0 t :=
  in0_of V (dat V c) (A_eq V c 0) (after_0 V c) t d
theorem before_1 (c : Dev nD) (t : Fin cfg1.N) (d) : (dat V c).before 1 t d = blk V c 1 t :=
  in1_of V (dat V c) (A_eq V c 1) (after_1 V c) t d
theorem before_2 (c : Dev nD) (t : Fin cfg1.N) (d) : (dat V c).before 2 t d = blk V c 2 t :=
  in2_of V (dat V c) (A_eq V c 2) (after_2 V c) t d
theorem before_3 (c : Dev nD) (t : Fin cfg1.N) (d) : (dat V c).before 3 t d = blk V c 3 t :=
  in3_of V (dat V c) (A_eq V c 3) (after_3 V c) t d
theorem before_4 (c : Dev nD) (t : Fin cfg1.N) (d) : (dat V c).before 4 t d = blk V c 4 t :=
  in4_of V (dat V c) (A_eq V c 4) (after_4 V c) t d
theorem before_5 (c : Dev nD) (t : Fin cfg1.N) (d) : (dat V c).before 5 t d = blk V c 5 t :=
  in5_of V (dat V c) (A_eq V c 5) (after_5 V c) t d
theorem before_6 (c : Dev nD) (t : Fin cfg1.N) (d) : (dat V c).before 6 t d = blk V c 6 t :=
  in6_of V (dat V c) (A_eq V c 6) (after_6 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).Φ t.succ = (dat V c).Φ t.castSucc from rfl,
    show (dat V c).owesAt () t.succ = (dat V c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W1, bigSep_W1]
  exact sound_body V c t

end Cert.KernelIdeal.Layer

end
-- ==== Proof.KernelIdeal.Run.lean ====
/-
  The run of the whole program at any float instance. Between its items — the three host operations that cut and
  lay out the weight matrices, the projection call, the layer call — the TensorCore's unscoped buffers hold:
  `Ma` at launch; `Mb` after the host operations; `Mc` after the projection call, whose two output arrays hold what its
  one point wrote back; `Md` after the layer call, whose output array holds what its sixteen points wrote back. Every
  weakly fair execution terminates without a fault and ends with EVERY unscoped buffer at `Md` (`run_all`); no item
  writes an argument array, so each argument reads back its launch contents through the four stages (`frame`).
-/
import proofs.«113407_g58420145160623_cont_9to1c4b_573_2_alg».proof.Proof.KernelIdeal.Prep
import proofs.«113407_g58420145160623_cont_9to1c4b_573_2_alg».proof.Proof.KernelIdeal.Layer
import proofs.«113407_g58420145160623_cont_9to1c4b_573_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the items -/

/-- At launch. -/
abbrev Ma : Dev nD → Valuation τ sig (Elt F) := fun c b => (s₀ m ρ).mem ((c : Dev nD), b)
/-- After the host operations: G_h = rows 128…255 of the gate matrix, the five matrices side by side, G_u = rows 0…127. -/
abbrev Mb : Dev nD → Valuation τ sig (Elt F) := fun c => StableHlo.after hostOps0 (Ma m ρ c)
abbrev Nb : (c : Dev nD) → (b : Ref sig .tc) → Buf (Elt F) ((c : Thread nD τ).loc b) := fun c b => Mb m ρ c b
/-- After the projection call: its arrays at what its write-backs leave, every other buffer as before. -/
def Mc (c : Dev nD) : Valuation τ sig (Elt F) :=
  Pipeline.withArrays spec0 c (Mb m ρ c) fun w => (Prep.dat (Nb m ρ) c).arrAt w cfg0.N
theorem Mc_arr (c : Dev nD) (w : Fin cfg0.W) :
    Mc m ρ c (Proc.devRef .tc (Pipeline.arrRef spec0 w)) = (Prep.dat (Nb m ρ) c).arrAt w cfg0.N := by
  unfold Mc; exact Pipeline.withArrays_arr spec0 launch0.win.arr_inj c _ _ w
theorem Mc_of_ne (c : Dev nD) (b : Ref sig .tc) (hb : ∀ w, Pipeline.arrRef spec0 w ≠ b) :
    Mc m ρ c (Proc.devRef .tc b) = Mb m ρ c (Proc.devRef .tc b) := by
  unfold Mc; exact Pipeline.withArrays_of_ne spec0 c _ _ b hb
abbrev Nc : (c : Dev nD) → (b : Ref sig .tc) → Buf (Elt F) ((c : Thread nD τ).loc b) := fun c b => Mc m ρ c b
theorem hF0 (c : Dev nD) (w : Fin cfg0.W) : (Prep.dat (Nb m ρ) c).arrAt w cfg0.N = Nc m ρ c (Pipeline.arrRef spec0 w) :=
  (Mc_arr m ρ c w).symm
theorem hrest0 (c : Dev nD) : ∀ b, b ∉ Finset.univ.image (Pipeline.arrRef spec0) → Nc m ρ c b = Nb m ρ c b :=
  fun b hb => Mc_of_ne m ρ c b fun w e => hb (Finset.mem_image.mpr ⟨w, Finset.mem_univ _, e⟩)
/-- After the layer call: its arrays at what its write-backs leave, every other buffer as before. -/
def Md (c : Dev nD) : Valuation τ sig (Elt F) :=
  Pipeline.withArrays spec1 c (Mc m ρ c) fun w => (Layer.dat (Nc m ρ) c).arrAt w cfg1.N
theorem Md_arr (c : Dev nD) (w : Fin cfg1.W) :
    Md m ρ c (Proc.devRef .tc (Pipeline.arrRef spec1 w)) = (Layer.dat (Nc m ρ) c).arrAt w cfg1.N := by
  unfold Md; exact Pipeline.withArrays_arr spec1 launch1.win.arr_inj c _ _ w
theorem Md_of_ne (c : Dev nD) (b : Ref sig .tc) (hb : ∀ w, Pipeline.arrRef spec1 w ≠ b) :
    Md m ρ c (Proc.devRef .tc b) = Mc m ρ c (Proc.devRef .tc b) := by
  unfold Md; exact Pipeline.withArrays_of_ne spec1 c _ _ b hb
abbrev Nd : (c : Dev nD) → (b : Ref sig .tc) → Buf (Elt F) ((c : Thread nD τ).loc b) := fun c b => Md m ρ c b
theorem hF1 (c : Dev nD) (w : Fin cfg1.W) : (Layer.dat (Nc m ρ) c).arrAt w cfg1.N = Nd m ρ c (Pipeline.arrRef spec1 w) :=
  (Md_arr m ρ c w).symm
theorem hrest1 (c : Dev nD) : ∀ b, b ∉ Finset.univ.image (Pipeline.arrRef spec1) → Nd m ρ c b = Nc m ρ c b :=
  fun b hb => Md_of_ne m ρ c b fun w e => hb (Finset.mem_image.mpr ⟨w, Finset.mem_univ _, e⟩)

/-! ## No item writes an argument: a call reads it through an input window, or does not touch it; the host
    operations write only the three cut-and-laid-out matrices -/

theorem Md_main_arg0 (c : Dev nD) : Md m ρ c (Proc.devRef .tc main_arg0) = m ((c : Thread nD τ).loc main_arg0) :=
  calc Md m ρ c (Proc.devRef .tc main_arg0)
    _ = Mc m ρ c (Proc.devRef .tc main_arg0) := (Md_arr m ρ c 5).trans (((Layer.dat (Nc m ρ) c).arrAt_in 5 rfl _).trans (Layer.A_eq (Nc m ρ) c 5))
    _ = Mb m ρ c (Proc.devRef .tc main_arg0) := (Mc_arr m ρ c 0).trans (((Prep.dat (Nb m ρ) c).arrAt_in 0 rfl _).trans (Prep.A_eq (Nb m ρ) c 0))
    _ = Ma m ρ c (Proc.devRef .tc main_arg0) := StableHlo.after_of_writes_sub hostOps0 _ Gen.hostOps0_writes (by decide)
    _ = m ((c : Thread nD τ).loc main_arg0) := rfl
theorem Md_main_arg1 (c : Dev nD) : Md m ρ c (Proc.devRef .tc main_arg1) = m ((c : Thread nD τ).loc main_arg1) :=
  calc Md m ρ c (Proc.devRef .tc main_arg1)
    _ = Mc m ρ c (Proc.devRef .tc main_arg1) := (Md_arr m ρ c 0).trans (((Layer.dat (Nc m ρ) c).arrAt_in 0 rfl _).trans (Layer.A_eq (Nc m ρ) c 0))
    _ = Mb m ρ c (Proc.devRef .tc main_arg1) := Mc_of_ne m ρ c main_arg1 (by decide)
    _ = Ma m ρ c (Proc.devRef .tc main_arg1) := StableHlo.after_of_writes_sub hostOps0 _ Gen.hostOps0_writes (by decide)
    _ = m ((c : Thread nD τ).loc main_arg1) := rfl
theorem Md_main_arg2 (c : Dev nD) : Md m ρ c (Proc.devRef .tc main_arg2) = m ((c : Thread nD τ).loc main_arg2) :=
  calc Md m ρ c (Proc.devRef .tc main_arg2)
    _ = Mc m ρ c (Proc.devRef .tc main_arg2) := (Md_arr m ρ c 1).trans (((Layer.dat (Nc m ρ) c).arrAt_in 1 rfl _).trans (Layer.A_eq (Nc m ρ) c 1))
    _ = Mb m ρ c (Proc.devRef .tc main_arg2) := Mc_of_ne m ρ c main_arg2 (by decide)
    _ = Ma m ρ c (Proc.devRef .tc main_arg2) := StableHlo.after_of_writes_sub hostOps0 _ Gen.hostOps0_writes (by decide)
    _ = m ((c : Thread nD τ).loc main_arg2) := rfl
theorem Md_main_arg3 (c : Dev nD) : Md m ρ c (Proc.devRef .tc main_arg3) = m ((c : Thread nD τ).loc main_arg3) :=
  calc Md m ρ c (Proc.devRef .tc main_arg3)
    _ = Mc m ρ c (Proc.devRef .tc main_arg3) := (Md_arr m ρ c 2).trans (((Layer.dat (Nc m ρ) c).arrAt_in 2 rfl _).trans (Layer.A_eq (Nc m ρ) c 2))
    _ = Mb m ρ c (Proc.devRef .tc main_arg3) := Mc_of_ne m ρ c main_arg3 (by decide)
    _ = Ma m ρ c (Proc.devRef .tc main_arg3) := StableHlo.after_of_writes_sub hostOps0 _ Gen.hostOps0_writes (by decide)
    _ = m ((c : Thread nD τ).loc main_arg3) := rfl
theorem Md_main_arg4 (c : Dev nD) : Md m ρ c (Proc.devRef .tc main_arg4) = m ((c : Thread nD τ).loc main_arg4) :=
  calc Md m ρ c (Proc.devRef .tc main_arg4)
    _ = Mc m ρ c (Proc.devRef .tc main_arg4) := Md_of_ne m ρ c main_arg4 (by decide)
    _ = Mb m ρ c (Proc.devRef .tc main_arg4) := Mc_of_ne m ρ c main_arg4 (by decide)
    _ = Ma m ρ c (Proc.devRef .tc main_arg4) := StableHlo.after_of_writes_sub hostOps0 _ Gen.hostOps0_writes (by decide)
    _ = m ((c : Thread nD τ).loc main_arg4) := rfl
theorem Md_main_arg5 (c : Dev nD) : Md m ρ c (Proc.devRef .tc main_arg5) = m ((c : Thread nD τ).loc main_arg5) :=
  calc Md m ρ c (Proc.devRef .tc main_arg5)
    _ = Mc m ρ c (Proc.devRef .tc main_arg5) := Md_of_ne m ρ c main_arg5 (by decide)
    _ = Mb m ρ c (Proc.devRef .tc main_arg5) := Mc_of_ne m ρ c main_arg5 (by decide)
    _ = Ma m ρ c (Proc.devRef .tc main_arg5) := StableHlo.after_of_writes_sub hostOps0 _ Gen.hostOps0_writes (by decide)
    _ = m ((c : Thread nD τ).loc main_arg5) := rfl
theorem Md_main_arg6 (c : Dev nD) : Md m ρ c (Proc.devRef .tc main_arg6) = m ((c : Thread nD τ).loc main_arg6) :=
  calc Md m ρ c (Proc.devRef .tc main_arg6)
    _ = Mc m ρ c (Proc.devRef .tc main_arg6) := Md_of_ne m ρ c main_arg6 (by decide)
    _ = Mb m ρ c (Proc.devRef .tc main_arg6) := Mc_of_ne m ρ c main_arg6 (by decide)
    _ = Ma m ρ c (Proc.devRef .tc main_arg6) := StableHlo.after_of_writes_sub hostOps0 _ Gen.hostOps0_writes (by decide)
    _ = m ((c : Thread nD τ).loc main_arg6) := rfl
theorem Md_main_arg7 (c : Dev nD) : Md m ρ c (Proc.devRef .tc main_arg7) = m ((c : Thread nD τ).loc main_arg7) :=
  calc Md m ρ c (Proc.devRef .tc main_arg7)
    _ = Mc m ρ c (Proc.devRef .tc main_arg7) := Md_of_ne m ρ c main_arg7 (by decide)
    _ = Mb m ρ c (Proc.devRef .tc main_arg7) := Mc_of_ne m ρ c main_arg7 (by decide)
    _ = Ma m ρ c (Proc.devRef .tc main_arg7) := StableHlo.after_of_writes_sub hostOps0 _ Gen.hostOps0_writes (by decide)
    _ = m ((c : Thread nD τ).loc main_arg7) := rfl
theorem Md_main_arg8 (c : Dev nD) : Md m ρ c (Proc.devRef .tc main_arg8) = m ((c : Thread nD τ).loc main_arg8) :=
  calc Md m ρ c (Proc.devRef .tc main_arg8)
    _ = Mc m ρ c (Proc.devRef .tc main_arg8) := Md_of_ne m ρ c main_arg8 (by decide)
    _ = Mb m ρ c (Proc.devRef .tc main_arg8) := Mc_of_ne m ρ c main_arg8 (by decide)
    _ = Ma m ρ c (Proc.devRef .tc main_arg8) := StableHlo.after_of_writes_sub hostOps0 _ Gen.hostOps0_writes (by decide)
    _ = m ((c : Thread nD τ).loc main_arg8) := rfl

/-! ## The proof data of both calls and the state that rides between the items -/

abbrev padm : (p : Fin 2) → (pcfgs (F := F) p).Adm := fun p => (cfgs p).toPCfg_adm
/-- Each call's proof data at the contents it is entered from. -/
def pdat : (p : Fin 2) → (c : Dev nD) → Dat τ (Elt F) Unit ℕ (UR sig nD τ) ℕ (Pipeline.pin (pcfgs (F := F)) padm p) c
  | ⟨0, _⟩ => fun c => Prep.dat (Nb m ρ) c
  | ⟨1, _⟩ => fun c => Layer.dat (Nc m ρ) c
abbrev 𝒱n : Variants := Variants.none
abbrev Ln : GSem nD τ sig → Finset Unit := fun _ => ∅
abbrev lvn : GSem nD τ sig → Unit → ℕ := fun _ _ => 0
/-- Beside the buffers: the core's generator register at some state, and the core owing nothing. -/
abbrev Rn (c : Dev nD) : sProp 𝕄 := iprop((∃ r, prngReg c r) ∗ ∃ W, owes (c : Thread nD τ) (0 : CellTallies nD τ sig Unit) W)
theorem hostOps0_fresh' : (hostOps0 : List (HloOp τ sig (Elt F))).Forall fun op => op.fresh = ∅ := by
  simp only [List.Forall]; repeat' constructor
/-- The host operations as one segment from the launch contents. -/
abbrev hostSeg : Pipeline.HostSeg (Name := ℕ) (U := UR sig nD τ) (pcfgs (F := F)) defs₀ 𝒱n Ln lvn :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh') op h) (Ma m ρ) Rn
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without what the core owes: every unscoped buffer at `Md`, the register at some state. -/
abbrev Tend (c : Dev nD) : sProp 𝕄 := iprop(StableHlo.held (c : Thread nD τ) (Pipeline.ucRefs τ sig) (Md m ρ c) ∗ ∃ r, prngReg c r)

/-! ## The two calls as segments: a call's arrays are split out of the unscoped buffers at its entry and put back at
    their final contents at its exit; the register goes into the call's invariant and comes back -/

set_option backward.isDefEq.respectTransparency.types false in
def regPrep : Pipeline.RegionSeg (pcfgs (F := F)) padm (pdat m ρ) () defs₀ 𝒱n Ln lvn 0 where
  win := launch0.win.to₀
  block_pos := launch0.block_pos
  stage_whole := launch0.stage_whole
  K := PEmpty
  osem k := k.elim
  ho := Pipeline.OwnSemFacts.none _
  hbody c := (Prep.body_obligation (Nb m ρ) c).loose
  hwaits := Pipeline.hwaits_of_owed_zero _ _ _ _ Ln lvn 0 fun _ _ => rfl
  pre c := iprop(StableHlo.held (c : Thread nD τ) (Pipeline.ucRefs τ sig) (Mb m ρ c) ∗ Rn c)
  post c := iprop(StableHlo.held (c : Thread nD τ) (Pipeline.ucRefs τ sig) (Mc m ρ c) ∗ Rn c)
  X c := iprop(∃ r, prngReg c r)
  Y c := iprop(∃ r, prngReg c r)
  Z c := Pipeline.unscopedRest (Ix := Unit) (Name := ℕ) (U := UR sig nD τ) (Lvl := ℕ) spec0 c (Nb m ρ c)
  hentry c := by
    rw [Pipeline.ownSems0_none]
    have hsplit := Pipeline.arrays_of_unscopedBufs (p := 0) (pcfgs (F := F)) padm (pdat m ρ) launch0.win launch0.arr_whole c
      ((pdat m ρ 0 c).share_full fun _ => rfl) (Nb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdat m ρ) ((pdat m ρ 0 c).share_full fun _ => rfl)
      (Nb m ρ c) (Nc m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regLayer : Pipeline.RegionSeg (pcfgs (F := F)) padm (pdat m ρ) () defs₀ 𝒱n Ln lvn 1 where
  win := launch1.win.to₀
  block_pos := launch1.block_pos
  stage_whole := launch1.stage_whole
  K := PEmpty
  osem k := k.elim
  ho := Pipeline.OwnSemFacts.none _
  hbody c := (Layer.body_obligation (Nc m ρ) c).loose
  hwaits := Pipeline.hwaits_of_owed_zero _ _ _ _ Ln lvn 1 fun _ _ => rfl
  pre c := iprop(StableHlo.held (c : Thread nD τ) (Pipeline.ucRefs τ sig) (Mc m ρ c) ∗ Rn c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Nc m ρ c)
  hentry c := by
    rw [Pipeline.ownSems0_none]
    have hsplit := Pipeline.arrays_of_unscopedBufs (p := 1) (pcfgs (F := F)) padm (pdat m ρ) launch1.win launch1.arr_whole c
      ((pdat m ρ 1 c).share_full fun _ => rfl) (Nc m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdat m ρ) ((pdat m ρ 1 c).share_full fun _ => rfl)
      (Nc m ρ c) (Nd m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three segments, and the launch -/

abbrev mainSegs : List (Pipeline.Seg (pcfgs (F := F)) padm (pdat m ρ) () defs₀ 𝒱n Ln lvn) :=
  [ .host (hostSeg m ρ), .region (regPrep m ρ), .region (regLayer m ρ) ]
theorem main_is_run (c : Dev nD) : main (F := F) c = Pipeline.Seg.run (mainSegs m ρ) := (main_chain c).trans (by chain_rfl)

set_option backward.isDefEq.respectTransparency.types false in
/-- Every weakly fair execution from memory `m` with zero counters terminates, nothing faulting, and ends with every
    unscoped buffer of every core at `Md`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Md m ρ c b) :=
  Pipeline.θ_run_regions_kit (pcfgs (F := F)) padm (pdat m ρ) () cellOf_inj emb₁ defs₀ 𝒱n Ln lvn m ρ main (mainSegs m ρ)
    (fun c Q => by rw [main_is_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Ma m ρ c) ∗ Rn c)) (Tₙ := Tend m ρ)
    (hch := ⟨fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (Ma m ρ c)
        from Pipeline.unscopedBufs_held c (Ma m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Md m ρ c b)
    (hfin := fun c s' => by
      iintro ⟨⟨Hh, -⟩, HSI⟩
      unfold StableHlo.held
      imodintro
      iapply (pointsTo_read_all (Pipeline.ucRefs τ sig) (fun b => (((c : Thread nD τ)).1, b)) (Md m ρ c) s')
      isplitl [Hh] <;> iassumption)
    (hQ := fun s h c => h c)

/-- The frame: the program runs to the end and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (Md_main_arg0 m ρ c),
     (h c _ (mem_uc main_arg1 (by decide))).trans (Md_main_arg1 m ρ c),
     (h c _ (mem_uc main_arg2 (by decide))).trans (Md_main_arg2 m ρ c),
     (h c _ (mem_uc main_arg3 (by decide))).trans (Md_main_arg3 m ρ c),
     (h c _ (mem_uc main_arg4 (by decide))).trans (Md_main_arg4 m ρ c),
     (h c _ (mem_uc main_arg5 (by decide))).trans (Md_main_arg5 m ρ c),
     (h c _ (mem_uc main_arg6 (by decide))).trans (Md_main_arg6 m ρ c),
     (h c _ (mem_uc main_arg7 (by decide))).trans (Md_main_arg7 m ρ c),
     (h c _ (mem_uc main_arg8 (by decide))).trans (Md_main_arg8 m ρ c)⟩)
    (run_all m ρ)

end Cert.KernelIdeal.Whole

end
-- ==== Proof.KernelIdeal.Blocks.lean ====
/-
  Where each window's block sits in its array. The projection call has one grid point and every window is its whole
  array: entry (r, q) of a block is entry (r, q) of the array. The layer call has sixteen points; at point t the three
  adjacency windows, the [H W_0 | H G_h] window, the H window and the output window hold rows 256 t … 256 t + 255 (entry
  (i, q) of the block is entry (256 t + i, q) of the array), while the projections and G_u are whole arrays at every point.
  The index maps are decided once over each grid; a block's coordinate is its index times its extent plus the coordinate
  inside the block.
-/
import proofs.«113407_g58420145160623_cont_9to1c4b_573_2_alg».proof.Proof.KernelIdeal.Run
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The projection call: every window's block index is (0, 0) at its one point. -/
theorem idx_prep : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The layer call: the row-blocked windows are at block (t, 0) at point t, the two whole-array windows at (0, 0). -/
theorem idx_layer : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt16 (t : Fin cfg1.N) : t.val < 16 := lt_of_lt_of_eq (show t.val < grid1.N from t.isLt) N_1

/-! ## The projection call's blocks -/

theorem prep_blk0 (c : Dev nD) (t : Fin cfg0.N) (r : Fin 4096) (q : Fin 128) :
    Prep.blk V c 0 t (ix2 r q) = V c main_arg0 (ix2 r q) := by
  unfold Prep.blk
  show V c main_arg0 (((cfg0.win 0).blk t).view.emb (ix2 r q)) = _
  refine congrArg _ (funext fun a => Fin.ext ?_)
  obtain ⟨p00, p01, p10, p11, p20, p21, p30, p31⟩ := idx_prep t
  match a with
  | ⟨0, _⟩ => show win0_0.index t (0 : Fin 2) * 4096 + 1 * r.val = r.val; omega
  | ⟨1, _⟩ => show win0_0.index t (1 : Fin 2) * 128 + 1 * q.val = q.val; omega
theorem prep_blk1 (c : Dev nD) (t : Fin cfg0.N) (r : Fin 128) (q : Fin 640) :
    Prep.blk V c 1 t (ix2 r q) = V c main_v1 (ix2 r q) := by
  unfold Prep.blk
  show V c main_v1 (((cfg0.win 1).blk t).view.emb (ix2 r q)) = _
  refine congrArg _ (funext fun a => Fin.ext ?_)
  obtain ⟨p00, p01, p10, p11, p20, p21, p30, p31⟩ := idx_prep t
  match a with
  | ⟨0, _⟩ => show win0_1.index t (0 : Fin 2) * 128 + 1 * r.val = r.val; omega
  | ⟨1, _⟩ => show win0_1.index t (1 : Fin 2) * 640 + 1 * q.val = q.val; omega
theorem prep_emb2 (t : Fin cfg0.N) (r : Fin 4096) (q : Fin 384) :
    ((cfg0.win 2).blk t).view.emb (ix2 r q) = ix2 r q := by
  refine funext fun a => Fin.ext ?_
  obtain ⟨p00, p01, p10, p11, p20, p21, p30, p31⟩ := idx_prep t
  match a with
  | ⟨0, _⟩ => show win0_2.index t (0 : Fin 2) * 4096 + 1 * r.val = r.val; omega
  | ⟨1, _⟩ => show win0_2.index t (1 : Fin 2) * 384 + 1 * q.val = q.val; omega
theorem prep_emb3 (t : Fin cfg0.N) (r : Fin 4096) (q : Fin 256) :
    ((cfg0.win 3).blk t).view.emb (ix2 r q) = ix2 r q := by
  refine funext fun a => Fin.ext ?_
  obtain ⟨p00, p01, p10, p11, p20, p21, p30, p31⟩ := idx_prep t
  match a with
  | ⟨0, _⟩ => show win0_3.index t (0 : Fin 2) * 4096 + 1 * r.val = r.val; omega
  | ⟨1, _⟩ => show win0_3.index t (1 : Fin 2) * 256 + 1 * q.val = q.val; omega

/-! ## The layer call's blocks -/

theorem layer_blk0 (c : Dev nD) (t : Fin cfg1.N) (i : Fin 256) (q : Fin 4096) (R : Fin 4096) (hR : R.val = t.val * 256 + i.val) :
    Layer.blk V c 0 t (ix2 i q) = V c main_arg1 (ix2 R q) := by
  unfold Layer.blk
  show V c main_arg1 (((cfg1.win 0).blk t).view.emb (ix2 i q)) = _
  refine congrArg _ (funext fun a => Fin.ext ?_)
  obtain ⟨l00, l01, l10, l11, l20, l21, l30, l31, l40, l41, l50, l51, l60, l61, l70, l71⟩ := idx_layer t
  match a with
  | ⟨0, _⟩ => show win1_0.index t (0 : Fin 2) * 256 + 1 * i.val = R.val; omega
  | ⟨1, _⟩ => show win1_0.index t (1 : Fin 2) * 4096 + 1 * q.val = q.val; omega
theorem layer_blk1 (c : Dev nD) (t : Fin cfg1.N) (i : Fin 256) (q : Fin 4096) (R : Fin 4096) (hR : R.val = t.val * 256 + i.val) :
    Layer.blk V c 1 t (ix2 i q) = V c main_arg2 (ix2 R q) := by
  unfold Layer.blk
  show V c main_arg2 (((cfg1.win 1).blk t).view.emb (ix2 i q)) = _
  refine congrArg _ (funext fun a => Fin.ext ?_)
  obtain ⟨l00, l01, l10, l11, l20, l21, l30, l31, l40, l41, l50, l51, l60, l61, l70, l71⟩ := idx_layer t
  match a with
  | ⟨0, _⟩ => show win1_1.index t (0 : Fin 2) * 256 + 1 * i.val = R.val; omega
  | ⟨1, _⟩ => show win1_1.index t (1 : Fin 2) * 4096 + 1 * q.val = q.val; omega
theorem layer_blk2 (c : Dev nD) (t : Fin cfg1.N) (i : Fin 256) (q : Fin 4096) (R : Fin 4096) (hR : R.val = t.val * 256 + i.val) :
    Layer.blk V c 2 t (ix2 i q) = V c main_arg3 (ix2 R q) := by
  unfold Layer.blk
  show V c main_arg3 (((cfg1.win 2).blk t).view.emb (ix2 i q)) = _
  refine congrArg _ (funext fun a => Fin.ext ?_)
  obtain ⟨l00, l01, l10, l11, l20, l21, l30, l31, l40, l41, l50, l51, l60, l61, l70, l71⟩ := idx_layer t
  match a with
  | ⟨0, _⟩ => show win1_2.index t (0 : Fin 2) * 256 + 1 * i.val = R.val; omega
  | ⟨1, _⟩ => show win1_2.index t (1 : Fin 2) * 4096 + 1 * q.val = q.val; omega
theorem layer_blk3 (c : Dev nD) (t : Fin cfg1.N) (r : Fin 4096) (q : Fin 384) :
    Layer.blk V c 3 t (ix2 r q) = V c main_v3_0 (ix2 r q) := by
  unfold Layer.blk
  show V c main_v3_0 (((cfg1.win 3).blk t).view.emb (ix2 r q)) = _
  refine congrArg _ (funext fun a => Fin.ext ?_)
  obtain ⟨l00, l01, l10, l11, l20, l21, l30, l31, l40, l41, l50, l51, l60, l61, l70, l71⟩ := idx_layer t
  match a with
  | ⟨0, _⟩ => show win1_3.index t (0 : Fin 2) * 4096 + 1 * r.val = r.val; omega
  | ⟨1, _⟩ => show win1_3.index t (1 : Fin 2) * 384 + 1 * q.val = q.val; omega
theorem layer_blk4 (c : Dev nD) (t : Fin cfg1.N) (i : Fin 256) (q : Fin 256) (R : Fin 4096) (hR : R.val = t.val * 256 + i.val) :
    Layer.blk V c 4 t (ix2 i q) = V c main_v3_1 (ix2 R q) := by
  unfold Layer.blk
  show V c main_v3_1 (((cfg1.win 4).blk t).view.emb (ix2 i q)) = _
  refine congrArg _ (funext fun a => Fin.ext ?_)
  obtain ⟨l00, l01, l10, l11, l20, l21, l30, l31, l40, l41, l50, l51, l60, l61, l70, l71⟩ := idx_layer t
  match a with
  | ⟨0, _⟩ => show win1_4.index t (0 : Fin 2) * 256 + 1 * i.val = R.val; omega
  | ⟨1, _⟩ => show win1_4.index t (1 : Fin 2) * 256 + 1 * q.val = q.val; omega
theorem layer_blk5 (c : Dev nD) (t : Fin cfg1.N) (i : Fin 256) (q : Fin 128) (R : Fin 4096) (hR : R.val = t.val * 256 + i.val) :
    Layer.blk V c 5 t (ix2 i q) = V c main_arg0 (ix2 R q) := by
  unfold Layer.blk
  show V c main_arg0 (((cfg1.win 5).blk t).view.emb (ix2 i q)) = _
  refine congrArg _ (funext fun a => Fin.ext ?_)
  obtain ⟨l00, l01, l10, l11, l20, l21, l30, l31, l40, l41, l50, l51, l60, l61, l70, l71⟩ := idx_layer t
  match a with
  | ⟨0, _⟩ => show win1_5.index t (0 : Fin 2) * 256 + 1 * i.val = R.val; omega
  | ⟨1, _⟩ => show win1_5.index t (1 : Fin 2) * 128 + 1 * q.val = q.val; omega
theorem layer_blk6 (c : Dev nD) (t : Fin cfg1.N) (r : Fin 128) (q : Fin 128) :
    Layer.blk V c 6 t (ix2 r q) = V c main_v2 (ix2 r q) := by
  unfold Layer.blk
  show V c main_v2 (((cfg1.win 6).blk t).view.emb (ix2 r q)) = _
  refine congrArg _ (funext fun a => Fin.ext ?_)
  obtain ⟨l00, l01, l10, l11, l20, l21, l30, l31, l40, l41, l50, l51, l60, l61, l70, l71⟩ := idx_layer t
  match a with
  | ⟨0, _⟩ => show win1_6.index t (0 : Fin 2) * 128 + 1 * r.val = r.val; omega
  | ⟨1, _⟩ => show win1_6.index t (1 : Fin 2) * 128 + 1 * q.val = q.val; omega
theorem layer_emb7 (t : Fin cfg1.N) (i : Fin 256) (o : Fin 128) (R : Fin 4096) (hR : R.val = t.val * 256 + i.val) :
    ((cfg1.win 7).blk t).view.emb (ix2 i o) = ix2 R o := by
  refine funext fun a => Fin.ext ?_
  obtain ⟨l00, l01, l10, l11, l20, l21, l30, l31, l40, l41, l50, l51, l60, l61, l70, l71⟩ := idx_layer t
  match a with
  | ⟨0, _⟩ => show win1_7.index t (0 : Fin 2) * 256 + 1 * i.val = R.val; omega
  | ⟨1, _⟩ => show win1_7.index t (1 : Fin 2) * 128 + 1 * o.val = o.val; omega

/-! ## The output windows' blocks cover their arrays -/

theorem mem_prep2 (t : Fin cfg0.N) (i : S4096x384.Idx) :
    i ∈ ((cfg0.win 2).blk t).view.set ↔ ∀ a : Fin 2, win0_2.index t a * S4096x384.size a ≤ (i a).val ∧ (i a).val < win0_2.index t a * S4096x384.size a + S4096x384.size a := by
  show i ∈ ((View.whole main_v3_0).slice (win0_2.rect t)).set ↔ _
  rw [View.set_slice_whole, Rect.mem_set_unit]
  exact Iff.rfl
theorem mem_prep3 (t : Fin cfg0.N) (i : S4096x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v3_1).slice (win0_3.rect t)).set ↔ _
  rw [View.set_slice_whole, Rect.mem_set_unit]
  exact Iff.rfl
theorem mem_layer7 (t : Fin cfg1.N) (i : S4096x128.Idx) :
    i ∈ ((cfg1.win 7).blk t).view.set ↔ ∀ a : Fin 2, win1_7.index t a * S256x128.size a ≤ (i a).val ∧ (i a).val < win1_7.index t a * S256x128.size a + S256x128.size a := by
  show i ∈ ((View.whole main_v4).slice (win1_7.rect t)).set ↔ _
  rw [View.set_slice_whole, Rect.mem_set_unit]
  exact Iff.rfl

theorem cover_prep2 (i : S4096x384.Idx) : ∃ t : Fin cfg0.N, (cfg0.win 2).flush t = true ∧ i ∈ ((cfg0.win 2).blk t).view.set := by
  refine ⟨t0_0, flush0_2 _, ?_⟩
  rw [mem_prep2]
  obtain ⟨p00, p01, p10, p11, p20, p21, p30, p31⟩ := idx_prep t0_0
  have h0 : (i 0).val < 4096 := (i 0).isLt
  have h1 : (i 1).val < 384 := (i 1).isLt
  intro a
  match a with
  | ⟨0, _⟩ => show win0_2.index t0_0 (0 : Fin 2) * 4096 ≤ (i 0).val ∧ (i 0).val < win0_2.index t0_0 (0 : Fin 2) * 4096 + 4096; omega
  | ⟨1, _⟩ => show win0_2.index t0_0 (1 : Fin 2) * 384 ≤ (i 1).val ∧ (i 1).val < win0_2.index t0_0 (1 : Fin 2) * 384 + 384; omega
theorem cover_prep3 (i : S4096x256.Idx) : ∃ t : Fin cfg0.N, (cfg0.win 3).flush t = true ∧ i ∈ ((cfg0.win 3).blk t).view.set := by
  refine ⟨t0_0, flush0_3 _, ?_⟩
  rw [mem_prep3]
  obtain ⟨p00, p01, p10, p11, p20, p21, p30, p31⟩ := idx_prep t0_0
  have h0 : (i 0).val < 4096 := (i 0).isLt
  have h1 : (i 1).val < 256 := (i 1).isLt
  intro a
  match a with
  | ⟨0, _⟩ => show win0_3.index t0_0 (0 : Fin 2) * 4096 ≤ (i 0).val ∧ (i 0).val < win0_3.index t0_0 (0 : Fin 2) * 4096 + 4096; omega
  | ⟨1, _⟩ => show win0_3.index t0_0 (1 : Fin 2) * 256 ≤ (i 1).val ∧ (i 1).val < win0_3.index t0_0 (1 : Fin 2) * 256 + 256; omega
/-- Row r of the layer's output is written back by point r / 256. -/
theorem cover_layer7 (i : S4096x128.Idx) : ∃ t : Fin cfg1.N, (cfg1.win 7).flush t = true ∧ i ∈ ((cfg1.win 7).blk t).view.set := by
  have h0 : (i 0).val < 4096 := (i 0).isLt
  have h1 : (i 1).val < 128 := (i 1).isLt
  have hN : grid1.N = 16 := N_1
  let t : Fin cfg1.N := ⟨(i 0).val / 256, by show _ < grid1.N; omega⟩
  refine ⟨t, flush1_7 _, ?_⟩
  rw [mem_layer7]
  obtain ⟨l00, l01, l10, l11, l20, l21, l30, l31, l40, l41, l50, l51, l60, l61, l70, l71⟩ := idx_layer t
  have ht : t.val = (i 0).val / 256 := rfl
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 128 ≤ (i 1).val ∧ (i 1).val < win1_7.index t (1 : Fin 2) * 128 + 128; omega

end Cert.KernelIdeal.Blocks

end
-- ==== Proof.Spec.lean ====
/-
  The mathematics of one gated relational graph-convolution layer, over the extended reals and over no program.
  For a node r and an output column o, with H the node features, A_0, A_1, A_2 the three adjacency matrices, W_r the
  per-relation weights, W_0 the self weight, and the gate matrix cut into G_u (rows 0…127) and G_h (rows 128…255):

      update u(r, o) = (H W_0)(r, o) + message(r, o)
      gate   g(r, o) = logistic( Σ_j u(r, j) G_u(j, o) + Σ_j H(r, j) G_h(j, o) )
      output         = tanh(u(r, o)) · g(r, o) + H(r, o) · (1 − g(r, o)).

  The two programs differ only in how the message is summed: one projects first and aggregates after, scaling the
  total once, `c · Σ_rel Σ_k A(r, k) · (Σ_j H(k, j) W(j, o))`; the other scales each adjacency entry, aggregates and
  projects last, `Σ_rel Σ_j (Σ_k (c · A(r, k)) · H(k, j)) · W(j, o)`. On real numbers these agree (a double sum
  exchanged, a factor moved across it); on the extended reals the exchange needs every entry finite, which is what the
  lemmas below assume by taking real-valued data.
-/
import Idealize.ShloMosaic.PureOps.Ideal
import Idealize.ShloMosaic.PureOps.Ideal.Laws
import Idealize.ShloMosaic.PureOps.IdealRules
import Idealize.ShloMosaic.Lib.ValueIdx

noncomputable section

namespace Cert.GatedLayer

open Idealize.ShloMosaic

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {K J : Nat}

/-- Project, then aggregate: one relation's unscaled message at (r, o), from row r of the adjacency matrix `a`,
    the features `h` and column o of the weight `w`. -/
def aggProj (a : Fin K → EReal) (h : Fin K → Fin J → EReal) (w : Fin J → EReal) : EReal :=
  ∑ k, a k * ∑ j, h k j * w j

/-- Scale, aggregate, then project: the same relation's message as the other program sums it. -/
def projAgg (c : EReal) (a : Fin K → EReal) (h : Fin K → Fin J → EReal) (w : Fin J → EReal) : EReal :=
  ∑ j, (∑ k, (c * a k) * h k j) * w j

theorem aggProj_coe (a : Fin K → ℝ) (h : Fin K → Fin J → ℝ) (w : Fin J → ℝ) :
    aggProj (fun k => (a k : EReal)) (fun k j => (h k j : EReal)) (fun j => (w j : EReal))
      = ((∑ k, a k * ∑ j, h k j * w j : ℝ) : EReal) := by
  unfold aggProj
  simp only [← EReal.coe_mul, ← coe_sum]

/-- On finite data the second order of summation is the scale times the first: Σ_j (Σ_k c a_k h_kj) w_j
    = c Σ_k a_k Σ_j h_kj w_j, by distributing, exchanging the two sums and collecting. -/
theorem projAgg_coe (c : ℝ) (a : Fin K → ℝ) (h : Fin K → Fin J → ℝ) (w : Fin J → ℝ) :
    projAgg (c : EReal) (fun k => (a k : EReal)) (fun k j => (h k j : EReal)) (fun j => (w j : EReal))
      = ((c * ∑ k, a k * ∑ j, h k j * w j : ℝ) : EReal) := by
  unfold projAgg
  simp only [← EReal.coe_mul, ← coe_sum]
  refine congrArg _ ?_
  simp only [Finset.mul_sum, Finset.sum_mul]
  rw [Finset.sum_comm]
  refine Finset.sum_congr rfl fun k _ => Finset.sum_congr rfl fun j _ => ?_
  ring

/-- THE LAW that joins the two programs' updates: with finite data, adding to any `x` the scale times the sum of the
    three project-then-aggregate messages is adding zero plus the sum of the three scale-aggregate-project messages. -/
theorem update_law (x : EReal) (c : ℝ) (a0 a1 a2 : Fin K → ℝ) (h : Fin K → Fin J → ℝ) (w0 w1 w2 : Fin J → ℝ) :
    x + (c : EReal) * ((aggProj (fun k => (a0 k : EReal)) (fun k j => (h k j : EReal)) (fun j => (w0 j : EReal))
          + aggProj (fun k => (a1 k : EReal)) (fun k j => (h k j : EReal)) (fun j => (w1 j : EReal)))
          + aggProj (fun k => (a2 k : EReal)) (fun k j => (h k j : EReal)) (fun j => (w2 j : EReal)))
      = x + (0 + ((projAgg (c : EReal) (fun k => (a0 k : EReal)) (fun k j => (h k j : EReal)) (fun j => (w0 j : EReal))
          + projAgg (c : EReal) (fun k => (a1 k : EReal)) (fun k j => (h k j : EReal)) (fun j => (w1 j : EReal)))
          + projAgg (c : EReal) (fun k => (a2 k : EReal)) (fun k j => (h k j : EReal)) (fun j => (w2 j : EReal)))) := by
  rw [aggProj_coe, aggProj_coe, aggProj_coe, projAgg_coe, projAgg_coe, projAgg_coe, zero_add]
  refine congrArg (x + ·) ?_
  simp only [← EReal.coe_add, ← EReal.coe_mul]
  refine congrArg _ ?_
  ring

/-- A sum over 256 terms is the sum of its first 128 and of its last 128 (in any commutative monoid: no finiteness). -/
theorem sum_256 (f : Fin 256 → EReal) :
    ∑ k : Fin 256, f k = (∑ j : Fin 128, f (Fin.castAdd 128 j)) + ∑ j : Fin 128, f (Fin.natAdd 128 j) :=
  Fin.sum_univ_add (a := 128) (b := 128) f

/-- The binary32 word of 1.0 denotes the number one. -/
theorem one_f32 : Ideal.ofBits .f32 0x3F800000#32 = 1 := IdealRules.sign_bit.ideal_onePat .f32

/-- The binary32 word nearest 1/4095 denotes a real number (a normal float: neither infinity nor a NaN). -/
theorem scale_real : ∃ c : ℝ, Ideal.ofBits .f32 0x39800801#32 = (c : EReal) := by
  show ∃ c : ℝ, Ideal.ieee 8 23 (0x39800801#32 : BitVec 32) = (c : EReal)
  unfold Ideal.ieee
  dsimp only
  rw [if_neg (by decide), if_neg (by decide)]
  exact ⟨_, rfl⟩

/-- The layer's output at one entry, from row r of the update (`u`), column o of G_u (`gu`), the features' share of the
    gate's argument (`hg`) and the feature entry (`ho`): tanh(u_o) g + ho (1 − g), g the logistic of the gate's argument. -/
def gated (one : EReal) (u : Fin 128 → EReal) (gu : Fin 128 → EReal) (hg ho : EReal) (o : Fin 128) : EReal :=
  Ideal.tanh (u o) * Ideal.logistic ((∑ j, u j * gu j) + hg) + ho * (one - Ideal.logistic ((∑ j, u j * gu j) + hg))

end Cert.GatedLayer

end
-- ==== Proof.KernelIdeal.Entry.lean ====
/-
  The two kernels' stored values read at one entry, over the extended reals. A matrix product into a zero accumulator is
  the plain sum over the contracted index; a slice of columns is a shift of the column index; rounding to bf16 and a
  reshape to the same shape change nothing. So the projection kernel stores, at (r, q), Σ_j H(r, j) · Wcat(j, q) into its
  first output (q < 384) and Σ_j H(r, j) · Wcat(j, 384 + q) into its second (q < 256); and the layer kernel stores at
  (i, o) the gated output of the specification, with row i of the update
     u_j = R(i, j) + c · ((Σ_k A_0(i, k) P(k, j) + Σ_k A_1(i, k) P(k, 128 + j)) + Σ_k A_2(i, k) P(k, 256 + j)).
-/
import proofs.«113407_g58420145160623_cont_9to1c4b_573_2_alg».proof.Proof.Gen.KernelIdeal.Skeleton
import proofs.«113407_g58420145160623_cont_9to1c4b_573_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Entry

open Cert.KernelIdeal Cert.KernelIdeal.Gen
open Idealize.ShloMosaic Idealize.ShloMosaic.ValueIdx
open Cert.GatedLayer

/-! ## The three matrix products at an entry -/

theorem mm_proj_l0 (i : S4096x640.Idx) (q : dot_S4096x128_S128x640_S4096x640_1_0_0_1_n_n.contr.Idx) : (dot_S4096x128_S128x640_S4096x640_1_0_0_1_n_n.lhsIdx i q 0).val = (i 0).val := by
  unfold DotDims.lhsIdx
  rw [dif_neg (show ¬(0 : Fin S4096x128.rank) ∈ dot_S4096x128_S128x640_S4096x640_1_0_0_1_n_n.lhsBatch by decide), dif_pos (show (0 : Fin S4096x128.rank) ∈ dot_S4096x128_S128x640_S4096x640_1_0_0_1_n_n.lhsNonContracting by decide)]
  rfl
theorem mm_proj_r1 (i : S4096x640.Idx) (q : dot_S4096x128_S128x640_S4096x640_1_0_0_1_n_n.contr.Idx) : (dot_S4096x128_S128x640_S4096x640_1_0_0_1_n_n.rhsIdx i q 1).val = (i 1).val := by
  unfold DotDims.rhsIdx
  rw [dif_neg (show ¬(1 : Fin S128x640.rank) ∈ dot_S4096x128_S128x640_S4096x640_1_0_0_1_n_n.rhsBatch by decide), dif_pos (show (1 : Fin S128x640.rank) ∈ dot_S4096x128_S128x640_S4096x640_1_0_0_1_n_n.rhsNonContracting by decide)]
  rfl
/-- Entry (i, o) of the product into a zero accumulator: the sum over the contracted index k of l(i, k) · r(k, o). -/
theorem mm_proj {φ₁ φ₂ : FTy} (prec : Option ContractPrecision) (l : FVec Ideal S4096x128 φ₁) (r : FVec Ideal S128x640 φ₂) (i : Fin 4096) (o : Fin 640) :
    matmul dot_S4096x128_S128x640_S4096x640_1_0_0_1_n_n prec l r (constant (F := Ideal) S4096x640 .f32 0x00000000#32) (ix2 i o)
      = ∑ k : Fin 128, l (ix2 i k) * r (ix2 k o) := by
  simp only [matmul]
  rw [Ideal.matmul_constant_zero_apply, ← Equiv.sum_comp (ValueIdx.contrEquiv1 dot_S4096x128_S128x640_S4096x640_1_0_0_1_n_n 128 rfl rfl).symm]
  refine Finset.sum_congr rfl fun k _ => ?_
  have hk := ValueIdx.contrEquiv1_symm_val dot_S4096x128_S128x640_S4096x640_1_0_0_1_n_n 128 rfl rfl k
  have el : dot_S4096x128_S128x640_S4096x640_1_0_0_1_n_n.lhsIdx (ix2 i o) ((ValueIdx.contrEquiv1 dot_S4096x128_S128x640_S4096x640_1_0_0_1_n_n 128 rfl rfl).symm k) = ix2 i k := funext fun a => Fin.ext (by
    match a with
    | ⟨0, _⟩ => exact mm_proj_l0 _ _
    | ⟨1, _⟩ => exact (dot_S4096x128_S128x640_S4096x640_1_0_0_1_n_n.lhsIdx_val_of_single rfl _ _).trans hk)
  have er : dot_S4096x128_S128x640_S4096x640_1_0_0_1_n_n.rhsIdx (ix2 i o) ((ValueIdx.contrEquiv1 dot_S4096x128_S128x640_S4096x640_1_0_0_1_n_n 128 rfl rfl).symm k) = ix2 k o := funext fun a => Fin.ext (by
    match a with
    | ⟨0, _⟩ => exact (dot_S4096x128_S128x640_S4096x640_1_0_0_1_n_n.rhsIdx_val_of_single rfl _ _).trans hk
    | ⟨1, _⟩ => exact mm_proj_r1 _ _)
  rw [el, er]

theorem mm_adj_l0 (i : S256x128.Idx) (q : dot_S256x4096_S4096x128_S256x128_1_0_0_1_n_n.contr.Idx) : (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem mm_adj_r1 (i : S256x128.Idx) (q : dot_S256x4096_S4096x128_S256x128_1_0_0_1_n_n.contr.Idx) : (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl
/-- Entry (i, o) of the product into a zero accumulator: the sum over the contracted index k of l(i, k) · r(k, o). -/
theorem mm_adj {φ₁ φ₂ : FTy} (prec : Option ContractPrecision) (l : FVec Ideal S256x4096 φ₁) (r : FVec Ideal S4096x128 φ₂) (i : Fin 256) (o : Fin 128) :
    matmul dot_S256x4096_S4096x128_S256x128_1_0_0_1_n_n prec l r (constant (F := Ideal) S256x128 .f32 0x00000000#32) (ix2 i o)
      = ∑ k : Fin 4096, l (ix2 i k) * r (ix2 k o) := by
  simp only [matmul]
  rw [Ideal.matmul_constant_zero_apply, ← Equiv.sum_comp (ValueIdx.contrEquiv1 dot_S256x4096_S4096x128_S256x128_1_0_0_1_n_n 4096 rfl rfl).symm]
  refine Finset.sum_congr rfl fun k _ => ?_
  have hk := ValueIdx.contrEquiv1_symm_val dot_S256x4096_S4096x128_S256x128_1_0_0_1_n_n 4096 rfl rfl k
  have el : dot_S256x4096_S4096x128_S256x128_1_0_0_1_n_n.lhsIdx (ix2 i o) ((ValueIdx.contrEquiv1 dot_S256x4096_S4096x128_S256x128_1_0_0_1_n_n 4096 rfl rfl).symm k) = ix2 i k := funext fun a => Fin.ext (by
    match a with
    | ⟨0, _⟩ => exact mm_adj_l0 _ _
    | ⟨1, _⟩ => exact (dot_S256x4096_S4096x128_S256x128_1_0_0_1_n_n.lhsIdx_val_of_single rfl _ _).trans hk)
  have er : dot_S256x4096_S4096x128_S256x128_1_0_0_1_n_n.rhsIdx (ix2 i o) ((ValueIdx.contrEquiv1 dot_S256x4096_S4096x128_S256x128_1_0_0_1_n_n 4096 rfl rfl).symm k) = ix2 k o := funext fun a => Fin.ext (by
    match a with
    | ⟨0, _⟩ => exact (dot_S256x4096_S4096x128_S256x128_1_0_0_1_n_n.rhsIdx_val_of_single rfl _ _).trans hk
    | ⟨1, _⟩ => exact mm_adj_r1 _ _)
  rw [el, er]

theorem mm_gate_l0 (i : S256x128.Idx) (q : dot_S256x128_S128x128_S256x128_1_0_0_1_n_n.contr.Idx) : (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem mm_gate_r1 (i : S256x128.Idx) (q : dot_S256x128_S128x128_S256x128_1_0_0_1_n_n.contr.Idx) : (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl
/-- Entry (i, o) of the product into a zero accumulator: the sum over the contracted index k of l(i, k) · r(k, o). -/
theorem mm_gate {φ₁ φ₂ : FTy} (prec : Option ContractPrecision) (l : FVec Ideal S256x128 φ₁) (r : FVec Ideal S128x128 φ₂) (i : Fin 256) (o : Fin 128) :
    matmul dot_S256x128_S128x128_S256x128_1_0_0_1_n_n prec l r (constant (F := Ideal) S256x128 .f32 0x00000000#32) (ix2 i o)
      = ∑ k : Fin 128, l (ix2 i k) * r (ix2 k o) := by
  simp only [matmul]
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 i o) ((ValueIdx.contrEquiv1 dot_S256x128_S128x128_S256x128_1_0_0_1_n_n 128 rfl rfl).symm k) = ix2 i k := funext fun a => Fin.ext (by
    match a with
    | ⟨0, _⟩ => exact mm_gate_l0 _ _
    | ⟨1, _⟩ => exact (dot_S256x128_S128x128_S256x128_1_0_0_1_n_n.lhsIdx_val_of_single rfl _ _).trans hk)
  have er : dot_S256x128_S128x128_S256x128_1_0_0_1_n_n.rhsIdx (ix2 i o) ((ValueIdx.contrEquiv1 dot_S256x128_S128x128_S256x128_1_0_0_1_n_n 128 rfl rfl).symm k) = ix2 k o := funext fun a => Fin.ext (by
    match a with
    | ⟨0, _⟩ => exact (dot_S256x128_S128x128_S256x128_1_0_0_1_n_n.rhsIdx_val_of_single rfl _ _).trans hk
    | ⟨1, _⟩ => exact mm_gate_r1 _ _)
  rw [el, er]

/-! ## The slices at an entry -/

theorem ess_P {α : Type} (x : S4096x640.Idx → α) (i : Fin 4096) (j : Fin 384) :
    extractStridedSlice S4096x384 ![0, 0] x Cert.KernelIdeal.Facts₀.slices_S4096x640_o0_0_S4096x384 (ix2 i j) = x (ix2 i ⟨j.val, by have := j.isLt; omega⟩) :=
  extractStridedSlice_apply _ x _ (ix2 i j) (ix2 i ⟨j.val, by have := j.isLt; omega⟩) (fun a => by
    match a with
    | ⟨0, _⟩ => exact (Nat.zero_add _).symm
    | ⟨1, _⟩ => exact (Nat.zero_add _).symm)
theorem ess_R {α : Type} (x : S4096x640.Idx → α) (i : Fin 4096) (j : Fin 256) :
    extractStridedSlice S4096x256 ![0, 384] x Cert.KernelIdeal.Facts₀.slices_S4096x640_o0_384_S4096x256 (ix2 i j) = x (ix2 i ⟨384 + j.val, by have := j.isLt; omega⟩) :=
  extractStridedSlice_apply _ x _ (ix2 i j) (ix2 i ⟨384 + j.val, by have := j.isLt; omega⟩) (fun a => by
    match a with
    | ⟨0, _⟩ => exact (Nat.zero_add _).symm
    | ⟨1, _⟩ => exact rfl)
theorem ess_P0 {α : Type} (x : S4096x384.Idx → α) (i : Fin 4096) (j : Fin 128) :
    extractStridedSlice S4096x128 ![0, 0] x Cert.KernelIdeal.Facts₀.slices_S4096x384_o0_0_S4096x128 (ix2 i j) = x (ix2 i ⟨j.val, by have := j.isLt; omega⟩) :=
  extractStridedSlice_apply _ x _ (ix2 i j) (ix2 i ⟨j.val, by have := j.isLt; omega⟩) (fun a => by
    match a with
    | ⟨0, _⟩ => exact (Nat.zero_add _).symm
    | ⟨1, _⟩ => exact (Nat.zero_add _).symm)
theorem ess_P1 {α : Type} (x : S4096x384.Idx → α) (i : Fin 4096) (j : Fin 128) :
    extractStridedSlice S4096x128 ![0, 128] x Cert.KernelIdeal.Facts₀.slices_S4096x384_o0_128_S4096x128 (ix2 i j) = x (ix2 i ⟨128 + j.val, by have := j.isLt; omega⟩) :=
  extractStridedSlice_apply _ x _ (ix2 i j) (ix2 i ⟨128 + j.val, by have := j.isLt; omega⟩) (fun a => by
    match a with
    | ⟨0, _⟩ => exact (Nat.zero_add _).symm
    | ⟨1, _⟩ => exact rfl)
theorem ess_P2 {α : Type} (x : S4096x384.Idx → α) (i : Fin 4096) (j : Fin 128) :
    extractStridedSlice S4096x128 ![0, 256] x Cert.KernelIdeal.Facts₀.slices_S4096x384_o0_256_S4096x128 (ix2 i j) = x (ix2 i ⟨256 + j.val, by have := j.isLt; omega⟩) :=
  extractStridedSlice_apply _ x _ (ix2 i j) (ix2 i ⟨256 + j.val, by have := j.isLt; omega⟩) (fun a => by
    match a with
    | ⟨0, _⟩ => exact (Nat.zero_add _).symm
    | ⟨1, _⟩ => exact rfl)
theorem ess_R0 {α : Type} (x : S256x256.Idx → α) (i : Fin 256) (j : Fin 128) :
    extractStridedSlice S256x128 ![0, 0] x Cert.KernelIdeal.Facts₀.slices_S256x256_o0_0_S256x128 (ix2 i j) = x (ix2 i ⟨j.val, by have := j.isLt; omega⟩) :=
  extractStridedSlice_apply _ x _ (ix2 i j) (ix2 i ⟨j.val, by have := j.isLt; omega⟩) (fun a => by
    match a with
    | ⟨0, _⟩ => exact (Nat.zero_add _).symm
    | ⟨1, _⟩ => exact (Nat.zero_add _).symm)
theorem ess_R1 {α : Type} (x : S256x256.Idx → α) (i : Fin 256) (j : Fin 128) :
    extractStridedSlice S256x128 ![0, 128] x Cert.KernelIdeal.Facts₀.slices_S256x256_o0_128_S256x128 (ix2 i j) = x (ix2 i ⟨128 + j.val, by have := j.isLt; omega⟩) :=
  extractStridedSlice_apply _ x _ (ix2 i j) (ix2 i ⟨128 + j.val, by have := j.isLt; omega⟩) (fun a => by
    match a with
    | ⟨0, _⟩ => exact (Nat.zero_add _).symm
    | ⟨1, _⟩ => exact rfl)

theorem logistic_at {s : Shape} {φ : FTy} (x : FVec Ideal s φ) (i : s.Idx) : logistic x i = Ideal.logistic (x i) := rfl
theorem tanh_at {s : Shape} {φ : FTy} (x : FVec Ideal s φ) (i : s.Idx) : tanh x i = Ideal.tanh (x i) := rfl

/-! ## The projection kernel's two stored values -/

theorem pay_P (h : Vec Ideal S4096x128 .f32) (w : Vec Ideal S128x640 .f32) (r : Fin 4096) (q : Fin 384) :
    k0_pay2 h w (ix2 r q) = ∑ j : Fin 128, h (ix2 r j) * w (ix2 j ⟨q.val, by have := q.isLt; omega⟩) := by
  unfold k0_pay2 k0_pay1
  simp only [truncf_apply, ess_P, shapeCast_self, mm_proj]

theorem pay_R (h : Vec Ideal S4096x128 .f32) (w : Vec Ideal S128x640 .f32) (r : Fin 4096) (q : Fin 256) :
    k0_pay3 h w (ix2 r q) = ∑ j : Fin 128, h (ix2 r j) * w (ix2 j ⟨384 + q.val, by have := q.isLt; omega⟩) := by
  unfold k0_pay3 k0_pay1
  simp only [ess_R, shapeCast_self, mm_proj]

/-! ## The layer kernel's stored value -/

/-- Row i of the update as the layer kernel computes it from its blocks. -/
def updRow (p : Vec Ideal S4096x384 .bf16) (a0 a1 a2 : Vec Ideal S256x4096 .f32) (r : Vec Ideal S256x256 .f32) (i : Fin 256) (j : Fin 128) : EReal :=
  r (ix2 i ⟨j.val, by have := j.isLt; omega⟩) + Ideal.ofBits .f32 0x39800801#32
    * (((∑ k : Fin 4096, a0 (ix2 i k) * p (ix2 k ⟨j.val, by have := j.isLt; omega⟩))
        + ∑ k : Fin 4096, a1 (ix2 i k) * p (ix2 k ⟨128 + j.val, by have := j.isLt; omega⟩))
        + ∑ k : Fin 4096, a2 (ix2 i k) * p (ix2 k ⟨256 + j.val, by have := j.isLt; omega⟩))

theorem pay_H (p : Vec Ideal S4096x384 .bf16) (a0 a1 a2 : Vec Ideal S256x4096 .f32) (r : Vec Ideal S256x256 .f32)
    (g : Vec Ideal S128x128 .f32) (h : Vec Ideal S256x128 .f32) (i : Fin 256) (o : Fin 128) :
    k1_pay1 p a0 a1 a2 r g h (ix2 i o)
      = gated (Ideal.ofBits .f32 0x3F800000#32) (updRow p a0 a1 a2 r i) (fun j => g (ix2 j o))
          (r (ix2 i ⟨128 + o.val, by have := o.isLt; omega⟩)) (h (ix2 i o)) o := by
  unfold k1_pay1
  simp only [addf_apply, mulf_apply, subf_apply, broadcast_apply, logistic_at, tanh_at, truncf_apply, shapeCast_self,
    mm_adj, mm_gate, ess_P0, ess_P1, ess_P2, ess_R0, ess_R1]
  rfl

end Cert.KernelIdeal.Entry

end
-- ==== Proof.KernelIdeal.Final.lean ====
/-
  What the two calls leave in their output arrays, each as ONE function of the arrays the call was entered from, over
  the extended reals. What a point writes back is its block of that function (the stored value read at an entry, each
  block entry read where the block sits in its array), and the output blocks cover the array; so the array ends holding
  the function. Chained through the two calls and the host operations this gives the program's result as a function of
  the launch memory (`kernelVal`): with P = H · Wcat's first 384 columns and Rr its last 256,
     out(r, o) = gated output of the update  u_j = Rr(r, j) + c ((Σ_k A_0(r,k) P(k,j) + Σ_k A_1(r,k) P(k,128+j)) + Σ_k A_2(r,k) P(k,256+j)).
-/
import proofs.«113407_g58420145160623_cont_9to1c4b_573_2_alg».proof.Proof.KernelIdeal.Blocks
import proofs.«113407_g58420145160623_cont_9to1c4b_573_2_alg».proof.Proof.KernelIdeal.Entry

set_option maxRecDepth 16384

noncomputable section

namespace Cert.KernelIdeal.Final

open Cert.KernelIdeal Cert.KernelIdeal.Gen
open Idealize.ShloMosaic Idealize.ShloMosaic.TcCoe Idealize.ShloMosaic.ValueIdx Idealize.SL.Sem
open Idealize.ShloMosaic.Pipeline (Dat)
open Cert.GatedLayer

/-! ## The three closed forms -/

/-- Entry (r, q) of H · Wcat, q among the first 384 columns. -/
def projAt (H : S4096x128.Idx → EReal) (W : S128x640.Idx → EReal) (r : Fin 4096) (q : Fin 384) : EReal :=
  ∑ j : Fin 128, H (ix2 r j) * W (ix2 j ⟨q.val, by have := q.isLt; omega⟩)
/-- Entry (r, 384 + q) of H · Wcat. -/
def restAt (H : S4096x128.Idx → EReal) (W : S128x640.Idx → EReal) (r : Fin 4096) (q : Fin 256) : EReal :=
  ∑ j : Fin 128, H (ix2 r j) * W (ix2 j ⟨384 + q.val, by have := q.isLt; omega⟩)
/-- Row R of the update, from the adjacency matrices, the projections P and the rest Rr. -/
def updAt (A0 A1 A2 : S4096x4096.Idx → EReal) (P : S4096x384.Idx → EReal) (Rr : S4096x256.Idx → EReal) (R : Fin 4096) (j : Fin 128) : EReal :=
  Rr (ix2 R ⟨j.val, by have := j.isLt; omega⟩) + Ideal.ofBits .f32 0x39800801#32
    * (((∑ k : Fin 4096, A0 (ix2 R k) * P (ix2 k ⟨j.val, by have := j.isLt; omega⟩))
        + ∑ k : Fin 4096, A1 (ix2 R k) * P (ix2 k ⟨128 + j.val, by have := j.isLt; omega⟩))
        + ∑ k : Fin 4096, A2 (ix2 R k) * P (ix2 k ⟨256 + j.val, by have := j.isLt; omega⟩))
/-- Entry (R, o) of the layer's output. -/
def layerAt (A0 A1 A2 : S4096x4096.Idx → EReal) (P : S4096x384.Idx → EReal) (Rr : S4096x256.Idx → EReal)
    (H : S4096x128.Idx → EReal) (Gu : S128x128.Idx → EReal) (R : Fin 4096) (o : Fin 128) : EReal :=
  gated (Ideal.ofBits .f32 0x3F800000#32) (updAt A0 A1 A2 P Rr R) (fun j => Gu (ix2 j o))
    (Rr (ix2 R ⟨128 + o.val, by have := o.isLt; omega⟩)) (H (ix2 R o)) o

variable (V : (c : Dev nD) → (b : Ref sig .tc) → Buf (Elt Ideal) ((c : Thread nD τ).loc b))

/-! ## The projection call -/

theorem flushedP (c : Dev nD) (t : Fin cfg0.N) :
    (Prep.dat V c).flushed 2 t = ((cfg0.win 2).blk t).view.read (Elt Ideal)
      (fun y => projAt (V c main_arg0) (V c main_v1) (y 0) (y 1)) := by
  show (cfg0.win 2).cut (grid0.coords t) ((Prep.dat V c).after 2 t) = _
  rw [Prep.after_2]
  unfold Prep.outP
  rw [View.canon_unit_zero Blocks.hz]
  simp only [View.ld_unit_zero (S := S4096x128) Blocks.hz, View.ld_unit_zero (S := S128x640) Blocks.hz]
  funext y
  obtain ⟨r, q, rfl⟩ : ∃ (r : Fin 4096) (q : Fin 384), y = ix2 r q := ⟨y 0, y 1, eq_ix2 y⟩
  show k0_pay2 (Prep.blk V c 0 t) (Prep.blk V c 1 t) (ix2 r q)
    = projAt (V c main_arg0) (V c main_v1) ((((cfg0.win 2).blk t).view.emb (ix2 r q)) 0) ((((cfg0.win 2).blk t).view.emb (ix2 r q)) 1)
  rw [Entry.pay_P, Blocks.prep_emb2]
  show _ = projAt (V c main_arg0) (V c main_v1) r q
  unfold projAt
  simp only [Blocks.prep_blk0, Blocks.prep_blk1]

theorem flushedR (c : Dev nD) (t : Fin cfg0.N) :
    (Prep.dat V c).flushed 3 t = ((cfg0.win 3).blk t).view.read (Elt Ideal)
      (fun y => restAt (V c main_arg0) (V c main_v1) (y 0) (y 1)) := by
  show (cfg0.win 3).cut (grid0.coords t) ((Prep.dat V c).after 3 t) = _
  rw [Prep.after_3]
  unfold Prep.outR
  rw [View.canon_unit_zero Blocks.hz]
  simp only [View.ld_unit_zero (S := S4096x128) Blocks.hz, View.ld_unit_zero (S := S128x640) Blocks.hz]
  funext y
  obtain ⟨r, q, rfl⟩ : ∃ (r : Fin 4096) (q : Fin 256), y = ix2 r q := ⟨y 0, y 1, eq_ix2 y⟩
  show k0_pay3 (Prep.blk V c 0 t) (Prep.blk V c 1 t) (ix2 r q)
    = restAt (V c main_arg0) (V c main_v1) ((((cfg0.win 3).blk t).view.emb (ix2 r q)) 0) ((((cfg0.win 3).blk t).view.emb (ix2 r q)) 1)
  rw [Entry.pay_R, Blocks.prep_emb3]
  show _ = restAt (V c main_arg0) (V c main_v1) r q
  unfold restAt
  simp only [Blocks.prep_blk0, Blocks.prep_blk1]

theorem finalP (c : Dev nD) : (Prep.dat V c).arrAt 2 cfg0.N = fun y => projAt (V c main_arg0) (V c main_v1) (y 0) (y 1) :=
  (Prep.dat V c).arrAt_eq_of_cover 2 _ (fun t _ => flushedP V c t) Blocks.cover_prep2
theorem finalR (c : Dev nD) : (Prep.dat V c).arrAt 3 cfg0.N = fun y => restAt (V c main_arg0) (V c main_v1) (y 0) (y 1) :=
  (Prep.dat V c).arrAt_eq_of_cover 3 _ (fun t _ => flushedR V c t) Blocks.cover_prep3

/-! ## The layer call -/

theorem updRow_blk (c : Dev nD) (t : Fin cfg1.N) (i : Fin 256) (R : Fin 4096) (hR : R.val = t.val * 256 + i.val) :
    Entry.updRow (Layer.blk V c 3 t) (Layer.blk V c 0 t) (Layer.blk V c 1 t) (Layer.blk V c 2 t) (Layer.blk V c 4 t) i
      = updAt (V c main_arg1) (V c main_arg2) (V c main_arg3) (V c main_v3_0) (V c main_v3_1) R := by
  funext j
  unfold Entry.updRow updAt
  simp only [Blocks.layer_blk0 V c t i _ R hR, Blocks.layer_blk1 V c t i _ R hR, Blocks.layer_blk2 V c t i _ R hR,
    Blocks.layer_blk3, Blocks.layer_blk4 V c t i _ R hR]

theorem flushedH (c : Dev nD) (t : Fin cfg1.N) :
    (Layer.dat V c).flushed 7 t = ((cfg1.win 7).blk t).view.read (Elt Ideal)
      (fun y => layerAt (V c main_arg1) (V c main_arg2) (V c main_arg3) (V c main_v3_0) (V c main_v3_1) (V c main_arg0) (V c main_v2) (y 0) (y 1)) := by
  show (cfg1.win 7).cut (grid1.coords t) ((Layer.dat V c).after 7 t) = _
  rw [Layer.after_7]
  unfold Layer.outH
  rw [View.canon_unit_zero Blocks.hz]
  simp only [View.ld_unit_zero (S := S256x4096) Blocks.hz, View.ld_unit_zero (S := S4096x384) Blocks.hz,
    View.ld_unit_zero (S := S256x256) Blocks.hz, View.ld_unit_zero (S := S256x128) Blocks.hz, View.ld_unit_zero (S := S128x128) Blocks.hz]
  funext y
  obtain ⟨i, o, rfl⟩ : ∃ (i : Fin 256) (o : Fin 128), y = ix2 i o := ⟨y 0, y 1, eq_ix2 y⟩
  have ht := Blocks.lt16 t
  have hi := i.isLt
  obtain ⟨R, hR⟩ : ∃ R : Fin 4096, R.val = t.val * 256 + i.val := ⟨⟨t.val * 256 + i.val, by omega⟩, rfl⟩
  show k1_pay1 (Layer.blk V c 3 t) (Layer.blk V c 0 t) (Layer.blk V c 1 t) (Layer.blk V c 2 t) (Layer.blk V c 4 t) (Layer.blk V c 6 t) (Layer.blk V c 5 t) (ix2 i o)
    = layerAt (V c main_arg1) (V c main_arg2) (V c main_arg3) (V c main_v3_0) (V c main_v3_1) (V c main_arg0) (V c main_v2)
        ((((cfg1.win 7).blk t).view.emb (ix2 i o)) 0) ((((cfg1.win 7).blk t).view.emb (ix2 i o)) 1)
  rw [Entry.pay_H, Blocks.layer_emb7 t i o R hR]
  show _ = layerAt _ _ _ _ _ _ _ R o
  unfold layerAt
  rw [updRow_blk V c t i R hR]
  simp only [Blocks.layer_blk4 V c t i _ R hR, Blocks.layer_blk5 V c t i _ R hR, Blocks.layer_blk6]

theorem finalH (c : Dev nD) : (Layer.dat V c).arrAt 7 cfg1.N
    = fun y => layerAt (V c main_arg1) (V c main_arg2) (V c main_arg3) (V c main_v3_0) (V c main_v3_1) (V c main_arg0) (V c main_v2) (y 0) (y 1) :=
  (Layer.dat V c).arrAt_eq_of_cover 7 _ (fun t _ => flushedH V c t) Blocks.cover_layer7

/-! ## Through the whole program -/

variable (m : (ℓ : Loc nD τ sig) → Buf (Elt Ideal) ℓ) (ρ : Dev nD → PrngReg)

/-- The five weight matrices side by side, as the host lays them out: W_1 | W_2 | W_3 | W_0 | G_h. -/
def wcat (c : Dev nD) : S128x640.Idx → EReal :=
  concatenate S128x640 1 [⟨S128x128, m ((c : Thread nD τ).loc main_arg5)⟩, ⟨S128x128, m ((c : Thread nD τ).loc main_arg6)⟩,
      ⟨S128x128, m ((c : Thread nD τ).loc main_arg7)⟩, ⟨S128x128, m ((c : Thread nD τ).loc main_arg4)⟩,
      ⟨S128x128, extractStridedSlice S128x128 ![128, 0] (m ((c : Thread nD τ).loc main_arg8)) Cert.KernelIdeal.Facts₀.slices_S256x128_S128x128_128_0⟩]
    Cert.KernelIdeal.Facts₀.concatenates_S128x128_S128x128_S128x128_S128x128_S128x128_S128x640_d1
/-- G_u: rows 0…127 of the gate matrix. -/
def gu (c : Dev nD) : S128x128.Idx → EReal :=
  extractStridedSlice S128x128 ![0, 0] (m ((c : Thread nD τ).loc main_arg8)) Cert.KernelIdeal.Facts₀.slices_S256x128_S128x128_0_0

theorem host_v1 (c : Dev nD) : (Whole.Nb m ρ c main_v1 : S128x640.Idx → EReal) = wcat m c := by
  show StableHlo.after hostOps0 (fun b => m (c, b)) (Proc.devRef .tc main_v1) = _
  after_results
  rfl
theorem host_v2 (c : Dev nD) : (Whole.Nb m ρ c main_v2 : S128x128.Idx → EReal) = gu m c := by
  show StableHlo.after hostOps0 (fun b => m (c, b)) (Proc.devRef .tc main_v2) = _
  after_results
  rfl
theorem host_arg0 (c : Dev nD) : Whole.Nb m ρ c main_arg0 = m ((c : Thread nD τ).loc main_arg0) :=
  StableHlo.after_of_writes_sub hostOps0 _ Gen.hostOps0_writes (by decide)

/-- The arrays the layer call is entered from. -/
theorem mid_arg0 (c : Dev nD) : Whole.Nc m ρ c main_arg0 = m ((c : Thread nD τ).loc main_arg0) :=
  ((Whole.Mc_arr m ρ c 0).trans (((Prep.dat (Whole.Nb m ρ) c).arrAt_in 0 rfl _).trans (Prep.A_eq (Whole.Nb m ρ) c 0))).trans (host_arg0 m ρ c)
theorem mid_arg1 (c : Dev nD) : Whole.Nc m ρ c main_arg1 = m ((c : Thread nD τ).loc main_arg1) :=
  (Whole.Mc_of_ne m ρ c main_arg1 (by decide)).trans (StableHlo.after_of_writes_sub hostOps0 _ Gen.hostOps0_writes (by decide))
theorem mid_arg2 (c : Dev nD) : Whole.Nc m ρ c main_arg2 = m ((c : Thread nD τ).loc main_arg2) :=
  (Whole.Mc_of_ne m ρ c main_arg2 (by decide)).trans (StableHlo.after_of_writes_sub hostOps0 _ Gen.hostOps0_writes (by decide))
theorem mid_arg3 (c : Dev nD) : Whole.Nc m ρ c main_arg3 = m ((c : Thread nD τ).loc main_arg3) :=
  (Whole.Mc_of_ne m ρ c main_arg3 (by decide)).trans (StableHlo.after_of_writes_sub hostOps0 _ Gen.hostOps0_writes (by decide))
theorem mid_v2 (c : Dev nD) : (Whole.Nc m ρ c main_v2 : S128x128.Idx → EReal) = gu m c :=
  (Whole.Mc_of_ne m ρ c main_v2 (by decide)).trans (host_v2 m ρ c)
theorem mid_P (c : Dev nD) : (Whole.Nc m ρ c main_v3_0 : S4096x384.Idx → EReal)
    = fun y => projAt (m ((c : Thread nD τ).loc main_arg0)) (wcat m c) (y 0) (y 1) := by
  refine (Whole.Mc_arr m ρ c 2).trans ((finalP (Whole.Nb m ρ) c).trans ?_)
  rw [host_arg0, host_v1]
theorem mid_R (c : Dev nD) : (Whole.Nc m ρ c main_v3_1 : S4096x256.Idx → EReal)
    = fun y => restAt (m ((c : Thread nD τ).loc main_arg0)) (wcat m c) (y 0) (y 1) := by
  refine (Whole.Mc_arr m ρ c 3).trans ((finalR (Whole.Nb m ρ) c).trans ?_)
  rw [host_arg0, host_v1]

/-- The program's result as a function of the launch memory. -/
def kernelVal (c : Dev nD) : S4096x128.Idx → EReal := fun y =>
  layerAt (m ((c : Thread nD τ).loc main_arg1)) (m ((c : Thread nD τ).loc main_arg2)) (m ((c : Thread nD τ).loc main_arg3))
    (fun y' => projAt (m ((c : Thread nD τ).loc main_arg0)) (wcat m c) (y' 0) (y' 1))
    (fun y' => restAt (m ((c : Thread nD τ).loc main_arg0)) (wcat m c) (y' 0) (y' 1))
    (m ((c : Thread nD τ).loc main_arg0)) (gu m c) (y 0) (y 1)

theorem out_eq (c : Dev nD) : Whole.Md m ρ c (Proc.devRef .tc main_v4) = kernelVal m c := by
  refine (Whole.Md_arr m ρ c 7).trans ((finalH (Whole.Nc m ρ) c).trans ?_)
  rw [mid_arg0, mid_arg1, mid_arg2, mid_arg3, mid_v2, mid_P, mid_R]
  rfl

end Cert.KernelIdeal.Final

end
-- ==== Proof.RefValue.lean ====
/-
  The reference program's result at one entry, over the extended reals, from the stage-by-stage readings of its run.
  Relation by relation the message is Σ_j (Σ_k (c · A(R, k)) · H(k, j)) · W(j, o); the three are stacked and summed from
  zero; the update adds H W_0; the gate's argument is one 256-term sum over [update | H] against the gate matrix, which
  splits into the update against rows 0…127 and H against rows 128…255; and 1 / (1 + e^(−x)) is the logistic function.
-/
import proofs.«113407_g58420145160623_cont_9to1c4b_573_2_alg».proof.Proof.Gen.ReferenceIdeal.Read
import proofs.«113407_g58420145160623_cont_9to1c4b_573_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.GatedLayer

/-- Relation 1's message at (R, j), as the reference sums it: scale the adjacency row, aggregate the features, project. -/
theorem msg1 (x0 : S4096x128.Idx → EReal) (x1 : S4096x4096.Idx → EReal) (x5 : S128x128.Idx → EReal) (R : Fin 4096) (j : Fin 128) :
    val_main_v3 (F := Ideal) x0 x1 x5 (ix2 R j)
      = projAgg (Ideal.ofBits .f32 0x39800801#32) (fun k => x1 (ix2 R k)) (fun k j' => x0 (ix2 k j')) (fun j' => x5 (ix2 j' j)) := by
  unfold projAgg
  rw [val_main_v3_apply]
  refine Finset.sum_congr rfl fun j' _ => ?_
  have e1 : lidx_main_v3 (ix2 R j) j' = ix2 R j' := funext fun a => Fin.ext (by match a with | ⟨0, _⟩ => rfl | ⟨1, _⟩ => rfl)
  have e2 : ridx_main_v3 (ix2 R j) j' = ix2 j' j := funext fun a => Fin.ext (by match a with | ⟨0, _⟩ => rfl | ⟨1, _⟩ => rfl)
  rw [e1, e2, val_main_v2_apply]
  refine congrArg (· * _) (Finset.sum_congr rfl fun k _ => ?_)
  have e3 : lidx_main_v2 (ix2 R j') k = ix2 R k := funext fun a => Fin.ext (by match a with | ⟨0, _⟩ => rfl | ⟨1, _⟩ => rfl)
  have e4 : ridx_main_v2 (ix2 R j') k = ix2 k j' := funext fun a => Fin.ext (by match a with | ⟨0, _⟩ => rfl | ⟨1, _⟩ => rfl)
  rw [e3, e4, val_main_v1_apply, val_main_v0_apply, val_main_cst_apply]
  rfl
/-- Relation 2's message at (R, j), as the reference sums it: scale the adjacency row, aggregate the features, project. -/
theorem msg2 (x0 : S4096x128.Idx → EReal) (x2 : S4096x4096.Idx → EReal) (x6 : S128x128.Idx → EReal) (R : Fin 4096) (j : Fin 128) :
    val_main_v7 (F := Ideal) x0 x2 x6 (ix2 R j)
      = projAgg (Ideal.ofBits .f32 0x39800801#32) (fun k => x2 (ix2 R k)) (fun k j' => x0 (ix2 k j')) (fun j' => x6 (ix2 j' j)) := by
  unfold projAgg
  rw [val_main_v7_apply]
  refine Finset.sum_congr rfl fun j' _ => ?_
  have e1 : lidx_main_v7 (ix2 R j) j' = ix2 R j' := funext fun a => Fin.ext (by match a with | ⟨0, _⟩ => rfl | ⟨1, _⟩ => rfl)
  have e2 : ridx_main_v7 (ix2 R j) j' = ix2 j' j := funext fun a => Fin.ext (by match a with | ⟨0, _⟩ => rfl | ⟨1, _⟩ => rfl)
  rw [e1, e2, val_main_v6_apply]
  refine congrArg (· * _) (Finset.sum_congr rfl fun k _ => ?_)
  have e3 : lidx_main_v6 (ix2 R j') k = ix2 R k := funext fun a => Fin.ext (by match a with | ⟨0, _⟩ => rfl | ⟨1, _⟩ => rfl)
  have e4 : ridx_main_v6 (ix2 R j') k = ix2 k j' := funext fun a => Fin.ext (by match a with | ⟨0, _⟩ => rfl | ⟨1, _⟩ => rfl)
  rw [e3, e4, val_main_v5_apply, val_main_v4_apply, val_main_cst_0_apply]
  rfl
/-- Relation 3's message at (R, j), as the reference sums it: scale the adjacency row, aggregate the features, project. -/
theorem msg3 (x0 : S4096x128.Idx → EReal) (x3 : S4096x4096.Idx → EReal) (x7 : S128x128.Idx → EReal) (R : Fin 4096) (j : Fin 128) :
    val_main_v11 (F := Ideal) x0 x3 x7 (ix2 R j)
      = projAgg (Ideal.ofBits .f32 0x39800801#32) (fun k => x3 (ix2 R k)) (fun k j' => x0 (ix2 k j')) (fun j' => x7 (ix2 j' j)) := by
  unfold projAgg
  rw [val_main_v11_apply]
  refine Finset.sum_congr rfl fun j' _ => ?_
  have e1 : lidx_main_v11 (ix2 R j) j' = ix2 R j' := funext fun a => Fin.ext (by match a with | ⟨0, _⟩ => rfl | ⟨1, _⟩ => rfl)
  have e2 : ridx_main_v11 (ix2 R j) j' = ix2 j' j := funext fun a => Fin.ext (by match a with | ⟨0, _⟩ => rfl | ⟨1, _⟩ => rfl)
  rw [e1, e2, val_main_v10_apply]
  refine congrArg (· * _) (Finset.sum_congr rfl fun k _ => ?_)
  have e3 : lidx_main_v10 (ix2 R j') k = ix2 R k := funext fun a => Fin.ext (by match a with | ⟨0, _⟩ => rfl | ⟨1, _⟩ => rfl)
  have e4 : ridx_main_v10 (ix2 R j') k = ix2 k j' := funext fun a => Fin.ext (by match a with | ⟨0, _⟩ => rfl | ⟨1, _⟩ => rfl)
  rw [e3, e4, val_main_v9_apply, val_main_v8_apply, val_main_cst_1_apply]
  rfl

/-! The stack of the three messages, read at its three layers. -/
theorem stack0 (x0 : S4096x128.Idx → EReal) (x1 x2 x3 : S4096x4096.Idx → EReal) (x5 x6 x7 : S128x128.Idx → EReal) (R : Fin 4096) (j : Fin 128) :
    val_main_v15 (F := Ideal) x0 x1 x2 x3 x5 x6 x7 (idx_main_v16 (ix2 R j) 0) = val_main_v3 (F := Ideal) x0 x1 x5 (ix2 R j) := by
  unfold val_main_v15
  refine (concatenate_apply_piece (t := S3x4096x128) 0 _ _ _ 0 (by exact (show (0 : Nat) < 3 by decide)) S1x4096x128 (val_main_v12 (F := Ideal) x0 x1 x5) rfl rfl 0 (by rfl)
    (ix3 (0 : Fin 1) R j) (fun b hb => ?_) (by rfl)).trans ?_
  · match b with
    | ⟨0, _⟩ => exact absurd rfl hb
    | ⟨1, _⟩ => rfl
    | ⟨2, _⟩ => rfl
  · rw [val_main_v12_apply]
    exact congrArg _ (funext fun a => Fin.ext (by match a with | ⟨0, _⟩ => rfl | ⟨1, _⟩ => rfl))
theorem stack1 (x0 : S4096x128.Idx → EReal) (x1 x2 x3 : S4096x4096.Idx → EReal) (x5 x6 x7 : S128x128.Idx → EReal) (R : Fin 4096) (j : Fin 128) :
    val_main_v15 (F := Ideal) x0 x1 x2 x3 x5 x6 x7 (idx_main_v16 (ix2 R j) 1) = val_main_v7 (F := Ideal) x0 x2 x6 (ix2 R j) := by
  unfold val_main_v15
  refine (concatenate_apply_piece (t := S3x4096x128) 0 _ _ _ 1 (by exact (show (1 : Nat) < 3 by decide)) S1x4096x128 (val_main_v13 (F := Ideal) x0 x2 x6) rfl rfl 1 (by rfl)
    (ix3 (0 : Fin 1) R j) (fun b hb => ?_) (by rfl)).trans ?_
  · match b with
    | ⟨0, _⟩ => exact absurd rfl hb
    | ⟨1, _⟩ => rfl
    | ⟨2, _⟩ => rfl
  · rw [val_main_v13_apply]
    exact congrArg _ (funext fun a => Fin.ext (by match a with | ⟨0, _⟩ => rfl | ⟨1, _⟩ => rfl))
theorem stack2 (x0 : S4096x128.Idx → EReal) (x1 x2 x3 : S4096x4096.Idx → EReal) (x5 x6 x7 : S128x128.Idx → EReal) (R : Fin 4096) (j : Fin 128) :
    val_main_v15 (F := Ideal) x0 x1 x2 x3 x5 x6 x7 (idx_main_v16 (ix2 R j) 2) = val_main_v11 (F := Ideal) x0 x3 x7 (ix2 R j) := by
  unfold val_main_v15
  refine (concatenate_apply_piece (t := S3x4096x128) 0 _ _ _ 2 (by exact (show (2 : Nat) < 3 by decide)) S1x4096x128 (val_main_v14 (F := Ideal) x0 x3 x7) rfl rfl 2 (by rfl)
    (ix3 (0 : Fin 1) R j) (fun b hb => ?_) (by rfl)).trans ?_
  · match b with
    | ⟨0, _⟩ => exact absurd rfl hb
    | ⟨1, _⟩ => rfl
    | ⟨2, _⟩ => rfl
  · rw [val_main_v14_apply]
    exact congrArg _ (funext fun a => Fin.ext (by match a with | ⟨0, _⟩ => rfl | ⟨1, _⟩ => rfl))

/-- The reference's update at (R, j). -/
def updRef (x0 : S4096x128.Idx → EReal) (x1 x2 x3 : S4096x4096.Idx → EReal) (x4 x5 x6 x7 : S128x128.Idx → EReal) (R : Fin 4096) (j : Fin 128) : EReal :=
  (∑ j' : Fin 128, x0 (ix2 R j') * x4 (ix2 j' j))
    + (Ideal.ofBits .f32 0x00000000#32
      + ((projAgg (Ideal.ofBits .f32 0x39800801#32) (fun k => x1 (ix2 R k)) (fun k j' => x0 (ix2 k j')) (fun j' => x5 (ix2 j' j))
          + projAgg (Ideal.ofBits .f32 0x39800801#32) (fun k => x2 (ix2 R k)) (fun k j' => x0 (ix2 k j')) (fun j' => x6 (ix2 j' j)))
          + projAgg (Ideal.ofBits .f32 0x39800801#32) (fun k => x3 (ix2 R k)) (fun k j' => x0 (ix2 k j')) (fun j' => x7 (ix2 j' j))))

theorem upd_eq (x0 : S4096x128.Idx → EReal) (x1 x2 x3 : S4096x4096.Idx → EReal) (x4 x5 x6 x7 : S128x128.Idx → EReal) (R : Fin 4096) (j : Fin 128) :
    val_main_v18 (F := Ideal) x0 x1 x2 x3 x4 x5 x6 x7 (ix2 R j) = updRef x0 x1 x2 x3 x4 x5 x6 x7 R j := by
  unfold updRef
  rw [val_main_v18_apply, val_main_v17_apply, val_main_v16_apply, Fin.sum_univ_three, stack0, stack1, stack2, msg1, msg2, msg3]
  have e1 : ∀ k : Fin 128, lidx_main_v17 (ix2 R j) k = ix2 R k := fun k => funext fun a => Fin.ext (by match a with | ⟨0, _⟩ => rfl | ⟨1, _⟩ => rfl)
  have e2 : ∀ k : Fin 128, ridx_main_v17 (ix2 R j) k = ix2 k j := fun k => funext fun a => Fin.ext (by match a with | ⟨0, _⟩ => rfl | ⟨1, _⟩ => rfl)
  simp only [e1, e2]
  rfl

/-- 1 / (1 + e^(−x)), spelt with the host's operations and the word of 1.0, is the logistic function. -/
theorem logistic_spelt (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = Ideal.logistic x
  rw [one_f32]
  rfl

/-- The reference's result at (R, o). -/
def refAt (x0 : S4096x128.Idx → EReal) (x1 x2 x3 : S4096x4096.Idx → EReal) (x4 x5 x6 x7 : S128x128.Idx → EReal) (x8 : S256x128.Idx → EReal)
    (R : Fin 4096) (o : Fin 128) : EReal :=
  gated (Ideal.ofBits .f32 0x3F800000#32) (updRef x0 x1 x2 x3 x4 x5 x6 x7 R)
    (fun j => x8 (ix2 ⟨j.val, by have := j.isLt; omega⟩ o))
    (∑ j : Fin 128, x0 (ix2 R j) * x8 (ix2 ⟨128 + j.val, by have := j.isLt; omega⟩ o)) (x0 (ix2 R o)) o

theorem ref_eq (x0 : S4096x128.Idx → EReal) (x1 x2 x3 : S4096x4096.Idx → EReal) (x4 x5 x6 x7 : S128x128.Idx → EReal) (x8 : S256x128.Idx → EReal)
    (R : Fin 4096) (o : Fin 128) :
    val_main_v32 (F := Ideal) x0 x1 x2 x3 x4 x5 x6 x7 x8 (ix2 R o) = refAt x0 x1 x2 x3 x4 x5 x6 x7 x8 R o := by
  unfold refAt gated
  rw [val_main_v32_apply, val_main_v28_apply, val_main_v31_apply, val_main_v27_apply, val_main_v30_apply, val_main_v29_apply,
    val_main_cst_5_apply, val_main_v26_apply, val_main_v25_apply, val_main_cst_4_apply, val_main_v24_apply, val_main_v23_apply,
    val_main_cst_3_apply, val_main_v22_apply, val_main_v21_apply, val_main_v20_apply, logistic_spelt, sum_256]
  have hl : ∀ j : Fin 128, val_main_v19 (F := Ideal) x0 x1 x2 x3 x4 x5 x6 x7 (lidx_main_v20 (ix2 R o) (Fin.castAdd 128 j))
      = val_main_v18 (F := Ideal) x0 x1 x2 x3 x4 x5 x6 x7 (ix2 R j) := fun j => by
    unfold val_main_v19
    exact concatenate_pair_apply_left (s₁ := S4096x128) (s₂ := S4096x128) 1 _ _ _ (lidx_main_v20 (ix2 R o) (Fin.castAdd 128 j)) rfl (ix2 R j) (fun b => by
      match b with
      | ⟨0, _⟩ => rfl
      | ⟨1, _⟩ => rfl)
  have hr : ∀ j : Fin 128, val_main_v19 (F := Ideal) x0 x1 x2 x3 x4 x5 x6 x7 (lidx_main_v20 (ix2 R o) (Fin.natAdd 128 j))
      = x0 (ix2 R j) := fun j => by
    unfold val_main_v19
    exact concatenate_pair_apply_right (s₁ := S4096x128) (s₂ := S4096x128) 1 _ _ _ (lidx_main_v20 (ix2 R o) (Fin.natAdd 128 j)) rfl rfl (ix2 R j) (fun b hb => by
      match b with
      | ⟨0, _⟩ => rfl
      | ⟨1, _⟩ => exact absurd rfl hb) (by show j.val + 128 = 128 + j.val; omega)
  have gl : ∀ j : Fin 128, x8 (ridx_main_v20 (ix2 R o) (Fin.castAdd 128 j)) = x8 (ix2 ⟨j.val, by have := j.isLt; omega⟩ o) :=
    fun j => congrArg x8 (funext fun a => Fin.ext (by match a with | ⟨0, _⟩ => rfl | ⟨1, _⟩ => rfl))
  have gr : ∀ j : Fin 128, x8 (ridx_main_v20 (ix2 R o) (Fin.natAdd 128 j)) = x8 (ix2 ⟨128 + j.val, by have := j.isLt; omega⟩ o) :=
    fun j => congrArg x8 (funext fun a => Fin.ext (by match a with | ⟨0, _⟩ => rfl | ⟨1, _⟩ => rfl))
  simp only [hl, hr, gl, gr, upd_eq]
  rfl

end Cert.ReferenceIdeal.RefValue

end
-- ==== Proof.Finite.lean ====
/-
  The precondition, decoded. It says, of each of the nine input arrays, that every entry's absolute value is below +∞
  (a `jnp.all` of the comparison, the nine joined by `and`). Over the extended reals |x| < +∞ rules out both infinities,
  so every entry is (the image of) a real number — what the exchange of the two sums in the message needs.
-/
import proofs.«113407_g58420145160623_cont_9to1c4b_573_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

instance : Subsingleton S_.Idx := ⟨fun a b => funext fun d => d.elim0⟩

/-- The binary32 word 0x7F800000 denotes +∞. -/
theorem inf_f32 : Ideal.ofBits .f32 0x7F800000#32 = ⊤ := by
  show Ideal.ieee 8 23 (0x7F800000#32 : BitVec 32) = ⊤
  unfold Ideal.ieee
  dsimp only
  rw [if_pos (by decide), if_pos (by decide), if_neg (by decide)]

/-- An extended real whose absolute value max(x, −x) is below +∞ is a real number. -/
theorem real_of_abs_lt (x : EReal) (h : Ideal.cmp .olt (max x (-x)) (Ideal.ofBits .f32 0x7F800000#32) = 1#1) :
    ∃ r : ℝ, x = (r : EReal) := by
  rw [inf_f32] at h
  induction x using EReal.rec with
  | bot => exfalso; simp [Ideal.cmp] at h
  | coe r => exact ⟨r, rfl⟩
  | top => exfalso; simp [Ideal.cmp] at h

variable [Cert.Pre_finite_inputs.Facts]

/-- Under the precondition every entry of every input array is a real number. -/
theorem all_real (x0 : FVec Ideal S4096x128 .f32) (x1 : FVec Ideal S4096x4096 .f32) (x2 : FVec Ideal S4096x4096 .f32) (x3 : FVec Ideal S4096x4096 .f32) (x4 : FVec Ideal S128x128 .f32) (x5 : FVec Ideal S128x128 .f32) (x6 : FVec Ideal S128x128 .f32) (x7 : FVec Ideal S128x128 .f32) (x8 : FVec Ideal S256x128 .f32)
    (h : fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) := by
  have h0 := congrFun h ValueIdx.ix0
  dsimp only [fn, fn_part1, fn_part2] at h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i),
    fun i => real_of_abs_lt _ (Host.reduce_andi_all _ _ _ _ _ e6 i),
    fun i => real_of_abs_lt _ (Host.reduce_andi_all _ _ _ _ _ e7 i),
    fun i => real_of_abs_lt _ (Host.reduce_andi_all _ _ _ _ _ e8 i)⟩

end Cert.FiniteInputs

end
-- ==== Proof.Bridge.lean ====
/-
  The two programs compute one function of finite inputs. The kernel's closed form and the reference's differ in three
  places. (1) The update's message: the kernel's projections P(k, 128 r + j) are Σ_j' H(k, j') W_r(j', j) — the laid-out
  weights read column block by column block — so its message is c · Σ_rel Σ_k A(R, k) Σ_j' H(k, j') W(j', j), against the
  reference's Σ_rel Σ_j' (Σ_k (c A(R, k)) H(k, j')) W(j', j) added to zero: equal on real data (the update law).
  (2) G_u is rows 0…127 of the gate matrix. (3) The features' share of the gate's argument is column 512 + o of H · Wcat,
  that is Σ_j H(R, j) · gate(128 + j, o).
-/
import proofs.«113407_g58420145160623_cont_9to1c4b_573_2_alg».proof.Proof.KernelIdeal.Final
import proofs.«113407_g58420145160623_cont_9to1c4b_573_2_alg».proof.Proof.RefValue

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open Cert.GatedLayer Cert.ReferenceIdeal.RefValue

/-! ## The nine argument arrays, as functions of an index -/

def a0 (m : (ℓ : Loc nD τ sig) → Buf (Elt Ideal) ℓ) (c : Dev nD) : S4096x128.Idx → EReal := m ((c : Thread nD τ).loc main_arg0)
def a1 (m : (ℓ : Loc nD τ sig) → Buf (Elt Ideal) ℓ) (c : Dev nD) : S4096x4096.Idx → EReal := m ((c : Thread nD τ).loc main_arg1)
def a2 (m : (ℓ : Loc nD τ sig) → Buf (Elt Ideal) ℓ) (c : Dev nD) : S4096x4096.Idx → EReal := m ((c : Thread nD τ).loc main_arg2)
def a3 (m : (ℓ : Loc nD τ sig) → Buf (Elt Ideal) ℓ) (c : Dev nD) : S4096x4096.Idx → EReal := m ((c : Thread nD τ).loc main_arg3)
def a4 (m : (ℓ : Loc nD τ sig) → Buf (Elt Ideal) ℓ) (c : Dev nD) : S128x128.Idx → EReal := m ((c : Thread nD τ).loc main_arg4)
def a5 (m : (ℓ : Loc nD τ sig) → Buf (Elt Ideal) ℓ) (c : Dev nD) : S128x128.Idx → EReal := m ((c : Thread nD τ).loc main_arg5)
def a6 (m : (ℓ : Loc nD τ sig) → Buf (Elt Ideal) ℓ) (c : Dev nD) : S128x128.Idx → EReal := m ((c : Thread nD τ).loc main_arg6)
def a7 (m : (ℓ : Loc nD τ sig) → Buf (Elt Ideal) ℓ) (c : Dev nD) : S128x128.Idx → EReal := m ((c : Thread nD τ).loc main_arg7)
def a8 (m : (ℓ : Loc nD τ sig) → Buf (Elt Ideal) ℓ) (c : Dev nD) : S256x128.Idx → EReal := m ((c : Thread nD τ).loc main_arg8)

variable (m : (ℓ : Loc nD τ sig) → Buf (Elt Ideal) ℓ) (c : Dev nD)

/-! ## The host-written arrays at an entry -/

theorem gu_at (j o : Fin 128) : Final.gu m c (ix2 j o) = (a8 m c) (ix2 ⟨j.val, by have := j.isLt; omega⟩ o) := by
  unfold Final.gu
  exact extractStridedSlice_apply _ _ _ (ix2 j o) (ix2 ⟨j.val, by have := j.isLt; omega⟩ o) (fun a => by
    match a with
    | ⟨0, _⟩ => exact (Nat.zero_add _).symm
    | ⟨1, _⟩ => exact (Nat.zero_add _).symm)

theorem wcat_rel1 (j' : Fin 128) (q : Fin 640) (o : Fin 128) (hq : q.val = 0 + o.val) :
    Final.wcat m c (ix2 j' q) = (a5 m c) (ix2 j' o) := by
  unfold Final.wcat
  exact concatenate_apply_piece (t := S128x640) 1 _ _ (ix2 j' q) 0 (by exact (show (0 : Nat) < 5 by decide)) S128x128 (a5 m c) rfl rfl 0 (by rfl)
    (ix2 j' o) (fun b hb => by
      match b with
      | ⟨0, _⟩ => rfl
      | ⟨1, _⟩ => exact absurd rfl hb) (by show 0 + o.val = q.val; omega)
theorem wcat_rel2 (j' : Fin 128) (q : Fin 640) (o : Fin 128) (hq : q.val = 128 + o.val) :
    Final.wcat m c (ix2 j' q) = (a6 m c) (ix2 j' o) := by
  unfold Final.wcat
  exact concatenate_apply_piece (t := S128x640) 1 _ _ (ix2 j' q) 1 (by exact (show (1 : Nat) < 5 by decide)) S128x128 (a6 m c) rfl rfl 128 (by rfl)
    (ix2 j' o) (fun b hb => by
      match b with
      | ⟨0, _⟩ => rfl
      | ⟨1, _⟩ => exact absurd rfl hb) (by show 128 + o.val = q.val; omega)
theorem wcat_rel3 (j' : Fin 128) (q : Fin 640) (o : Fin 128) (hq : q.val = 256 + o.val) :
    Final.wcat m c (ix2 j' q) = (a7 m c) (ix2 j' o) := by
  unfold Final.wcat
  exact concatenate_apply_piece (t := S128x640) 1 _ _ (ix2 j' q) 2 (by exact (show (2 : Nat) < 5 by decide)) S128x128 (a7 m c) rfl rfl 256 (by rfl)
    (ix2 j' o) (fun b hb => by
      match b with
      | ⟨0, _⟩ => rfl
      | ⟨1, _⟩ => exact absurd rfl hb) (by show 256 + o.val = q.val; omega)
theorem wcat_self (j' : Fin 128) (q : Fin 640) (o : Fin 128) (hq : q.val = 384 + o.val) :
    Final.wcat m c (ix2 j' q) = (a4 m c) (ix2 j' o) := by
  unfold Final.wcat
  exact concatenate_apply_piece (t := S128x640) 1 _ _ (ix2 j' q) 3 (by exact (show (3 : Nat) < 5 by decide)) S128x128 (a4 m c) rfl rfl 384 (by rfl)
    (ix2 j' o) (fun b hb => by
      match b with
      | ⟨0, _⟩ => rfl
      | ⟨1, _⟩ => exact absurd rfl hb) (by show 384 + o.val = q.val; omega)
theorem wcat_gh (j' : Fin 128) (q : Fin 640) (o : Fin 128) (hq : q.val = 512 + o.val) :
    Final.wcat m c (ix2 j' q) = (a8 m c) (ix2 ⟨128 + j'.val, by have := j'.isLt; omega⟩ o) := by
  unfold Final.wcat
  refine (concatenate_apply_piece (t := S128x640) 1 _ _ (ix2 j' q) 4 (by exact (show (4 : Nat) < 5 by decide)) S128x128 _ rfl rfl 512 (by rfl)
    (ix2 j' o) (fun b hb => by
      match b with
      | ⟨0, _⟩ => rfl
      | ⟨1, _⟩ => exact absurd rfl hb) (by show 512 + o.val = q.val; omega)).trans ?_
  exact extractStridedSlice_apply _ _ _ (ix2 j' o) (ix2 ⟨128 + j'.val, by have := j'.isLt; omega⟩ o) (fun a => by
    match a with
    | ⟨0, _⟩ => rfl
    | ⟨1, _⟩ => exact (Nat.zero_add _).symm)

/-! ## The kernel's projections as whole arrays -/

def projAll (H : S4096x128.Idx → EReal) (W : S128x640.Idx → EReal) : S4096x384.Idx → EReal := fun y => Final.projAt H W (y 0) (y 1)
def restAll (H : S4096x128.Idx → EReal) (W : S128x640.Idx → EReal) : S4096x256.Idx → EReal := fun y => Final.restAt H W (y 0) (y 1)
theorem projAll_at (H : S4096x128.Idx → EReal) (W : S128x640.Idx → EReal) (k : Fin 4096) (q : Fin 384) : projAll H W (ix2 k q) = Final.projAt H W k q := rfl
theorem restAll_at (H : S4096x128.Idx → EReal) (W : S128x640.Idx → EReal) (k : Fin 4096) (q : Fin 256) : restAll H W (ix2 k q) = Final.restAt H W k q := rfl

/-- The kernel's update in project-then-aggregate form over the argument arrays. -/
theorem upd_kernel (R : Fin 4096) (j : Fin 128) :
    Final.updAt (a1 m c) (a2 m c) (a3 m c) (projAll (a0 m c) (Final.wcat m c)) (restAll (a0 m c) (Final.wcat m c)) R j
      = (∑ j' : Fin 128, (a0 m c) (ix2 R j') * (a4 m c) (ix2 j' j))
        + Ideal.ofBits .f32 0x39800801#32
          * ((aggProj (fun k => (a1 m c) (ix2 R k)) (fun k j' => (a0 m c) (ix2 k j')) (fun j' => (a5 m c) (ix2 j' j))
              + aggProj (fun k => (a2 m c) (ix2 R k)) (fun k j' => (a0 m c) (ix2 k j')) (fun j' => (a6 m c) (ix2 j' j)))
              + aggProj (fun k => (a3 m c) (ix2 R k)) (fun k j' => (a0 m c) (ix2 k j')) (fun j' => (a7 m c) (ix2 j' j))) := by
  unfold Final.updAt aggProj
  rw [restAll_at]
  simp only [projAll_at]
  unfold Final.projAt Final.restAt
  refine congrArg₂ (· + ·) ?_ (congrArg (_ * ·) (congrArg₂ (· + ·) (congrArg₂ (· + ·) ?_ ?_) ?_))
  · exact Finset.sum_congr rfl fun j' _ => congrArg (_ * ·) (wcat_self m c j' _ j rfl)
  · exact Finset.sum_congr rfl fun k _ => congrArg (_ * ·) (Finset.sum_congr rfl fun j' _ => congrArg (_ * ·) (wcat_rel1 m c j' _ j (Nat.zero_add _).symm))
  · exact Finset.sum_congr rfl fun k _ => congrArg (_ * ·) (Finset.sum_congr rfl fun j' _ => congrArg (_ * ·) (wcat_rel2 m c j' _ j rfl))
  · exact Finset.sum_congr rfl fun k _ => congrArg (_ * ·) (Finset.sum_congr rfl fun j' _ => congrArg (_ * ·) (wcat_rel3 m c j' _ j rfl))

/-- On finite inputs the kernel's update row is the reference's. -/
theorem upd_bridge
    (h0 : ∀ i, ∃ r : ℝ, (a0 m c) i = (r : EReal))
    (h1 : ∀ i, ∃ r : ℝ, (a1 m c) i = (r : EReal))
    (h2 : ∀ i, ∃ r : ℝ, (a2 m c) i = (r : EReal))
    (h3 : ∀ i, ∃ r : ℝ, (a3 m c) i = (r : EReal))
    (h4 : ∀ i, ∃ r : ℝ, (a4 m c) i = (r : EReal))
    (h5 : ∀ i, ∃ r : ℝ, (a5 m c) i = (r : EReal))
    (h6 : ∀ i, ∃ r : ℝ, (a6 m c) i = (r : EReal))
    (h7 : ∀ i, ∃ r : ℝ, (a7 m c) i = (r : EReal))
    (h8 : ∀ i, ∃ r : ℝ, (a8 m c) i = (r : EReal))
    (R : Fin 4096) :
    Final.updAt (a1 m c) (a2 m c) (a3 m c) (projAll (a0 m c) (Final.wcat m c)) (restAll (a0 m c) (Final.wcat m c)) R
      = updRef (a0 m c) (a1 m c) (a2 m c) (a3 m c) (a4 m c) (a5 m c) (a6 m c) (a7 m c) R := by
  funext j
  rw [upd_kernel]
  unfold updRef
  rw [Ideal.ofBits_zero_f32]
  obtain ⟨cr, hc⟩ := scale_real
  choose f0 e0 using h0
  choose f1 e1 using h1
  choose f2 e2 using h2
  choose f3 e3 using h3
  choose f4 e4 using h4
  choose f5 e5 using h5
  choose f6 e6 using h6
  choose f7 e7 using h7
  rw [hc, show a0 m c = fun i => (f0 i : EReal) from funext e0, show a1 m c = fun i => (f1 i : EReal) from funext e1,
    show a2 m c = fun i => (f2 i : EReal) from funext e2, show a3 m c = fun i => (f3 i : EReal) from funext e3,
    show a4 m c = fun i => (f4 i : EReal) from funext e4, show a5 m c = fun i => (f5 i : EReal) from funext e5,
    show a6 m c = fun i => (f6 i : EReal) from funext e6, show a7 m c = fun i => (f7 i : EReal) from funext e7]
  exact update_law _ cr (fun k => f1 (ix2 R k)) (fun k => f2 (ix2 R k)) (fun k => f3 (ix2 R k)) (fun k j' => f0 (ix2 k j'))
    (fun j' => f5 (ix2 j' j)) (fun j' => f6 (ix2 j' j)) (fun j' => f7 (ix2 j' j))

/-- THE BRIDGE: on finite inputs the kernel's result array is the reference's function of the same arguments. -/
theorem kernel_eq_ref
    (h0 : ∀ i, ∃ r : ℝ, (a0 m c) i = (r : EReal))
    (h1 : ∀ i, ∃ r : ℝ, (a1 m c) i = (r : EReal))
    (h2 : ∀ i, ∃ r : ℝ, (a2 m c) i = (r : EReal))
    (h3 : ∀ i, ∃ r : ℝ, (a3 m c) i = (r : EReal))
    (h4 : ∀ i, ∃ r : ℝ, (a4 m c) i = (r : EReal))
    (h5 : ∀ i, ∃ r : ℝ, (a5 m c) i = (r : EReal))
    (h6 : ∀ i, ∃ r : ℝ, (a6 m c) i = (r : EReal))
    (h7 : ∀ i, ∃ r : ℝ, (a7 m c) i = (r : EReal))
    (h8 : ∀ i, ∃ r : ℝ, (a8 m c) i = (r : EReal)) :
    Final.kernelVal m c = fun y => refAt (a0 m c) (a1 m c) (a2 m c) (a3 m c) (a4 m c) (a5 m c) (a6 m c) (a7 m c) (a8 m c) (y 0) (y 1) := by
  funext y
  obtain ⟨R, o, rfl⟩ : ∃ (R : Fin 4096) (o : Fin 128), y = ix2 R o := ⟨y 0, y 1, eq_ix2 y⟩
  show Final.layerAt (a1 m c) (a2 m c) (a3 m c) (projAll (a0 m c) (Final.wcat m c)) (restAll (a0 m c) (Final.wcat m c)) (a0 m c) (Final.gu m c) R o
    = refAt (a0 m c) (a1 m c) (a2 m c) (a3 m c) (a4 m c) (a5 m c) (a6 m c) (a7 m c) (a8 m c) R o
  have ho := o.isLt
  unfold Final.layerAt refAt
  rw [upd_bridge m c h0 h1 h2 h3 h4 h5 h6 h7 h8 R]
  have g1 : (fun j : Fin 128 => Final.gu m c (ix2 j o)) = fun j : Fin 128 => (a8 m c) (ix2 ⟨j.val, by have := j.isLt; omega⟩ o) :=
    funext fun j => gu_at m c j o
  have g2 : restAll (a0 m c) (Final.wcat m c) (ix2 R ⟨128 + o.val, by omega⟩)
      = ∑ j : Fin 128, (a0 m c) (ix2 R j) * (a8 m c) (ix2 ⟨128 + j.val, by have := j.isLt; omega⟩ o) := by
    rw [restAll_at]
    unfold Final.restAt
    exact Finset.sum_congr rfl fun j' _ => congrArg (_ * ·) (wcat_gh m c j' _ o (by show 384 + (128 + o.val) = 512 + o.val; omega))
  rw [g1, g2]

end Cert.Bridge

end
-- ==== Proof.lean ====
/-
  One gated relational graph-convolution layer on 4096 nodes, computed two ways, gives the same result on finite inputs.
  Both programs compute, for node r and output column o,
      u(r, o) = (H W_0)(r, o) + (1/4095 as a binary32 number) · Σ_rel (A_rel H W_rel)(r, o),
      g(r, o) = logistic( (u G_u)(r, o) + (H G_h)(r, o) ),       out(r, o) = tanh(u(r, o)) g(r, o) + H(r, o) (1 − g(r, o)),
  G_u and G_h the upper and lower halves of the gate matrix. The kernel first multiplies H by the five weight matrices
  laid side by side, then, row block by row block, aggregates the projected features over each adjacency matrix, scales
  the total once and applies the gate; the reference scales each adjacency matrix, aggregates, projects, stacks and sums
  the three messages, and evaluates the gate's argument as one product of [u | H] with the whole gate matrix. Over the
  extended reals the two orders of the message's double sum agree when every entry is finite — the precondition —, the
  256-term gate sum splits into its two halves unconditionally, rounding to bf16 is the identity, and the logistic
  function is 1 / (1 + e^(−x)) by definition.
  Each program runs to the end without a fault and leaves its nine argument arrays unchanged; the idealized kernel is
  the kernel's own text read over the extended reals (no rewrite was applied, so there is nothing to preserve).
-/
import proofs.«113407_g58420145160623_cont_9to1c4b_573_2_alg».proof.Defs
import proofs.«113407_g58420145160623_cont_9to1c4b_573_2_alg».proof.Proof.Gen.Kernel
import proofs.«113407_g58420145160623_cont_9to1c4b_573_2_alg».proof.Proof.Gen.KernelIdeal
import proofs.«113407_g58420145160623_cont_9to1c4b_573_2_alg».proof.Proof.Gen.ReferenceIdeal
import proofs.«113407_g58420145160623_cont_9to1c4b_573_2_alg».proof.Proof.Gen.ReferenceIdeal.Run
import proofs.«113407_g58420145160623_cont_9to1c4b_573_2_alg».proof.Proof.Gen.ReferenceIdeal.Read
import proofs.«113407_g58420145160623_cont_9to1c4b_573_2_alg».proof.Proof.Gen.Pre_finite_inputs
import proofs.«113407_g58420145160623_cont_9to1c4b_573_2_alg».proof.Proof.Kernel.Run
import proofs.«113407_g58420145160623_cont_9to1c4b_573_2_alg».proof.Proof.KernelIdeal.Run
import proofs.«113407_g58420145160623_cont_9to1c4b_573_2_alg».proof.Proof.KernelIdeal.Final
import proofs.«113407_g58420145160623_cont_9to1c4b_573_2_alg».proof.Proof.RefValue
import proofs.«113407_g58420145160623_cont_9to1c4b_573_2_alg».proof.Proof.Finite
import proofs.«113407_g58420145160623_cont_9to1c4b_573_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs to the end and keeps its arguments. -/
theorem frame_kernel : Cert.frame_Kernel := fun m ρ _ => Cert.Kernel.Whole.frame m ρ
/-- So does the kernel read over the extended reals. -/
theorem frame_kernel_ideal : Cert.frame_KernelIdeal := fun m ρ _ => Cert.KernelIdeal.Whole.frame m ρ
/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was printed for the extended reals. -/
theorem preserves : Cert.preserves_Kernel_KernelIdeal := trivial

/-- From memories that agree on the nine arguments, all finite, both programs end with the result array at the kernel's
    closed form of the arguments: the kernel by its run, the reference because its stage-by-stage value is that function. -/
theorem algebraic : Cert.algebraic_KernelIdeal_ReferenceIdeal := by
  intro m ρ m' ρ' hpre hagree
  refine ⟨fun c => Cert.KernelIdeal.Final.kernelVal m c, ?_, ?_⟩
  · refine (θ_run Cert.KernelIdeal.defs _ _).mono (fun r h c => ?_) (Cert.KernelIdeal.Whole.run_all m ρ)
    exact ⟨(h c _ (Cert.KernelIdeal.Whole.mem_uc Cert.KernelIdeal.main_v4 (by decide))).trans (Cert.KernelIdeal.Final.out_eq m ρ c),
      (h c _ (Cert.KernelIdeal.Whole.mem_uc Cert.KernelIdeal.main_arg0 (by decide))).trans (Cert.KernelIdeal.Whole.Md_main_arg0 m ρ c),
      (h c _ (Cert.KernelIdeal.Whole.mem_uc Cert.KernelIdeal.main_arg1 (by decide))).trans (Cert.KernelIdeal.Whole.Md_main_arg1 m ρ c),
      (h c _ (Cert.KernelIdeal.Whole.mem_uc Cert.KernelIdeal.main_arg2 (by decide))).trans (Cert.KernelIdeal.Whole.Md_main_arg2 m ρ c),
      (h c _ (Cert.KernelIdeal.Whole.mem_uc Cert.KernelIdeal.main_arg3 (by decide))).trans (Cert.KernelIdeal.Whole.Md_main_arg3 m ρ c),
      (h c _ (Cert.KernelIdeal.Whole.mem_uc Cert.KernelIdeal.main_arg4 (by decide))).trans (Cert.KernelIdeal.Whole.Md_main_arg4 m ρ c),
      (h c _ (Cert.KernelIdeal.Whole.mem_uc Cert.KernelIdeal.main_arg5 (by decide))).trans (Cert.KernelIdeal.Whole.Md_main_arg5 m ρ c),
      (h c _ (Cert.KernelIdeal.Whole.mem_uc Cert.KernelIdeal.main_arg6 (by decide))).trans (Cert.KernelIdeal.Whole.Md_main_arg6 m ρ c),
      (h c _ (Cert.KernelIdeal.Whole.mem_uc Cert.KernelIdeal.main_arg7 (by decide))).trans (Cert.KernelIdeal.Whole.Md_main_arg7 m ρ c),
      (h c _ (Cert.KernelIdeal.Whole.mem_uc Cert.KernelIdeal.main_arg8 (by decide))).trans (Cert.KernelIdeal.Whole.Md_main_arg8 m ρ c)⟩
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v32_eq, a0, a1, a2, a3, a4, a5, a6, a7, a8]
    obtain ⟨h0, h1, h2, h3, h4, h5, h6, h7, h8⟩ := Cert.FiniteInputs.all_real _ _ _ _ _ _ _ _ _ (hpre c)
    refine Eq.trans ?_ (Cert.Bridge.kernel_eq_ref m c h0 h1 h2 h3 h4 h5 h6 h7 h8).symm
    funext y
    obtain ⟨R, o, rfl⟩ : ∃ (R : Fin 4096) (o : Fin 128), y = ix2 R o := ⟨y 0, y 1, eq_ix2 y⟩
    exact Cert.ReferenceIdeal.RefValue.ref_eq _ _ _ _ _ _ _ _ _ R o

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
